-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024 .f32) (main_arg13 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024x1024 .f32) (main_arg8 : FVec F S1024x1024 .f32) (main_arg9 : FVec F S1024x1024 .f32) (main_arg10 : FVec F S1024 .f32) (main_arg11 : FVec F S1024 .f32) (main_arg12 : FVec F S1024 .f32) (main_arg13 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024 .f32) (main_arg11 : FVec F S1024 .f32) (main_arg12 : FVec F S1024 .f32) (main_arg13 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x1024 .f32) (main_arg1 : FVec F S16384x1024 .f32) (main_arg2 : FVec F S1024x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024 .f32) (main_arg11 : FVec F S1024 .f32) (main_arg12 : FVec F S1024 .f32) (main_arg13 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S1024x3072 : Shape := ⟨2, ![1024, 3072]⟩
abbrev S3072 : Shape := ⟨1, ![3072]⟩
abbrev S1x3072 : Shape := ⟨2, ![1, 3072]⟩
abbrev S1x1024 : Shape := ⟨2, ![1, 1024]⟩
abbrev S256x1024 : Shape := ⟨2, ![256, 1024]⟩
abbrev S256x4096 : Shape := ⟨2, ![256, 4096]⟩
abbrev S256x3072 : Shape := ⟨2, ![256, 3072]⟩

abbrev nBuf : Space → Nat
  | .hbm => 24
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x4096, .f32⟩
  | .hbm, ⟨15, _⟩ => ⟨S1024x4096, .bf16⟩
  | .hbm, ⟨16, _⟩ => ⟨S1024x3072, .f32⟩
  | .hbm, ⟨17, _⟩ => ⟨S1024x3072, .bf16⟩
  | .hbm, ⟨18, _⟩ => ⟨S1024x1024, .bf16⟩
  | .hbm, ⟨19, _⟩ => ⟨S3072, .f32⟩
  | .hbm, ⟨20, _⟩ => ⟨S1x3072, .f32⟩
  | .hbm, ⟨21, _⟩ => ⟨S1x1024, .f32⟩
  | .hbm, ⟨22, _⟩ => ⟨S16384x1024, .bf16⟩
  | .hbm, ⟨23, _⟩ => ⟨S16384x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1024x4096, .bf16⟩
  | .local _ .vmem, ⟨5, _⟩ => ⟨S1024x3072, .bf16⟩
  | .local _ .vmem, ⟨6, _⟩ => ⟨S1024x1024, .bf16⟩
  | .local _ .vmem, ⟨7, _⟩ => ⟨S1x3072, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  shapeCasts_S3072_S1x3072 : S3072.ShapeCasts S1x3072
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S256x4096_o0_0_S256x3072 : S256x4096.Slices ![0, 0] S256x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  slices_S256x4096_o0_3072_S256x1024 : S256x4096.Slices ![0, 3072] S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x4096_S256x4096_1_0_0_1_n_n_wf : DotDims.WF S256x1024 S1024x4096 S256x4096 [1] [0] [0] [1] [] []
  dot_S256x1024_S1024x3072_S256x3072_1_0_0_1_n_n_wf : DotDims.WF S256x1024 S1024x3072 S256x3072 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .bf16 = 32 ∨ (Rect.block (s := S16384x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3072.size a ≤ S1x3072.size a
  hwx0_5 : ∀ i : grid0.Coords, EltTy.bits .f32 = 32 ∨ (Rect.block (s := S1x3072) S1x3072.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v8) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S16384x3072 : Shape := ⟨2, ![16384, 3072]⟩
abbrev S1x3072 : Shape := ⟨2, ![1, 3072]⟩
abbrev S1x1024 : Shape := ⟨2, ![1, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x3072, .f32⟩
  | .hbm, ⟨15, _⟩ => ⟨S1024x3072, .f32⟩
  | .hbm, ⟨16, _⟩ => ⟨S3072, .f32⟩
  | .hbm, ⟨17, _⟩ => ⟨S16384x3072, .f32⟩
  | .hbm, ⟨18, _⟩ => ⟨S16384x3072, .f32⟩
  | .hbm, ⟨19, _⟩ => ⟨S16384x3072, .f32⟩
  | .hbm, ⟨20, _⟩ => ⟨S1x3072, .f32⟩
  | .hbm, ⟨21, _⟩ => ⟨S16384x3072, .f32⟩
  | .hbm, ⟨22, _⟩ => ⟨S16384x3072, .f32⟩
  | .hbm, ⟨23, _⟩ => ⟨S16384x3072, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]

class Facts₀ : Prop where
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x1024_S1024x3072_S16384x3072_1_0_0_1_n_n_wf : DotDims.WF S16384x1024 S1024x3072 S16384x3072 [1] [0] [0] [1] [] []
  dot_S16384x1024_S1024x1024_S16384x1024_1_0_0_1_n_n_wf : DotDims.WF S16384x1024 S1024x1024 S16384x1024 [1] [0] [0] [1] [] []

variable [Facts₀]

def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.FrameKernel.lean ====
/-
  The frame of the gated recurrent cell's program: every weakly fair execution of @main terminates without a fault
  and leaves the fourteen argument arrays as they were.

  @main is nine host operations and one region. The host operations join the four input-side weight matrices
  [Uz | Ug | Ur | Uh] along the columns, join the three state-side matrices [Wz | Wg | Wr] likewise, join the three
  gate biases into one row, reshape the two bias rows to [1, n], and change the float format of X and of the
  three weight arrays; each writes a buffer of its own, so no argument array is written before the region.
  The region runs the body at 64 grid points. Point t is handed rows 256 t … 256 t + 255 of X and of the state S
  and the five weight and bias arrays whole; it loads all seven, computes one block of the new state — a pure
  function of the seven loaded blocks — and stores it over the whole output block, which is written back to rows
  256 t … 256 t + 255 of the result. The body touches nothing else, so the region's invariant is the plain one
  (the scoped rest of the core and its generator register, unread), and the frame launch of the pipeline library
  applies: what is owed here is the contents of the buffers when the region is entered, the body's triple, and
  the proof data saying what each window's staging buffer holds after each point.
-/
import proofs.«118173_j51419348467841_2_alg».proof.Proof.Gen.Kernel.Launch
import proofs.«118173_j51419348467841_2_alg».proof.Proof.Gen.Kernel.Skeleton
import proofs.«118173_j51419348467841_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- What core `c`'s buffers hold when the region is entered: the launch contents rewritten by the nine host
    operations in order. -/
abbrev atEntry (c : Dev nD) (b : Ref sig .tc) : Buf (Elt F) ((c : Thread nD τ).loc b) :=
  StableHlo.after hostOps0 (fun b => m (c, b)) b

/-- None of the nine operations allocates. -/
theorem prefix_fresh : (hostOps0 : List (HloOp τ sig (Elt F))).Forall fun op => op.fresh = ∅ := by
  simp only [List.Forall]; repeat' constructor

/-- @main is the nine host operations and then the region. -/
theorem main_upto_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub prefix_fresh main_chain

/-- The nine buffers the host operations write: the joined arrays, their copies in the narrow format, the
    reshaped bias rows and the narrow copy of X. -/
abbrev prefixWritten : List (Ref sig .tc) := [main_v0, main_v1, main_v2, main_v3, main_v4, main_v5, main_v6, main_v7, main_v8]

theorem prefix_writes : (hostOps0 : List (HloOp τ sig (Elt F))).Forall fun op =>
    op.writes ⊆ (prefixWritten.map (Proc.devRef (τ := τ) .tc)).toFinset := by
  simp only [hostOps0, List.Forall, StableHlo.nary_writes, StableHlo.unary_writes, StableHlo.reshape_writes,
    Finset.singleton_subset_iff, List.mem_toFinset, List.mem_map, prefixWritten]
  refine ⟨⟨main_v0, by decide, rfl⟩, ⟨main_v1, by decide, rfl⟩, ⟨main_v2, by decide, rfl⟩, ⟨main_v3, by decide, rfl⟩,
    ⟨main_v4, by decide, rfl⟩, ⟨main_v5, by decide, rfl⟩, ⟨main_v6, by decide, rfl⟩, ⟨main_v7, by decide, rfl⟩, ⟨main_v8, by decide, rfl⟩⟩

/-- A buffer that is none of those nine is found by the region as launched. -/
theorem atEntry_of_not_written (c : Dev nD) (b : Ref sig .tc) (hb : b ∉ prefixWritten) :
    atEntry m c b = m ((c : Thread nD τ).loc b) :=
  StableHlo.after_of_writes_sub hostOps0 _ prefix_writes hb

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's staging buffer holds the window's block at every point, whether the point fetched it or the
    block index has not moved since the fetch: the body only reads it. -/
theorem held0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's staging buffer holds the window's block at every point, whether the point fetched it or the
    block index has not moved since the fetch: the body only reads it. -/
theorem held1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's staging buffer holds the window's block at every point, whether the point fetched it or the
    block index has not moved since the fetch: the body only reads it. -/
theorem held2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's staging buffer holds the window's block at every point, whether the point fetched it or the
    block index has not moved since the fetch: the body only reads it. -/
theorem held3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's staging buffer holds the window's block at every point, whether the point fetched it or the
    block index has not moved since the fetch: the body only reads it. -/
theorem held4 {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's staging buffer holds the window's block at every point, whether the point fetched it or the
    block index has not moved since the fetch: the body only reads it. -/
theorem held5 {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's staging buffer holds the window's block at every point, whether the point fetched it or the
    block index has not moved since the fetch: the body only reads it. -/
theorem held6 {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The frame from a run of the launch -/

/-- In a state satisfying the library's frame post — every array of the pipeline at what the proof data compute,
    every other unscoped buffer as the region found it — the argument arrays are as launched: the state S is an
    input window's array, kept by the library; the other thirteen are staged by no window and written by no host
    operation. -/
theorem args_kept (dats : (p : Fin 1) → (c : Dev nD) → Dat τ (Elt F) Unit ℕ (UR sig nD τ) ℕ (cfgs p) c)
    (hA : ∀ c w, (dats 0 c).A w = atEntry m c (Pipeline.arrRef spec0 w))
    (r : PUnit × MemSt nD τ sig (Elt F)) (h : Pipeline.FramePost cfgs dats 0 (atEntry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).2 main_arg0 (Pipeline.mem_restRefs_of main_arg0 (by decide) (by decide))).trans (atEntry_of_not_written m c main_arg0 (by decide)),
    ((h c).1 1).trans (((dats 0 c).arrAt_in 1 rfl _).trans ((hA c 1).trans (atEntry_of_not_written m c main_arg1 (by decide)))),
    ((h c).2 main_arg2 (Pipeline.mem_restRefs_of main_arg2 (by decide) (by decide))).trans (atEntry_of_not_written m c main_arg2 (by decide)),
    ((h c).2 main_arg3 (Pipeline.mem_restRefs_of main_arg3 (by decide) (by decide))).trans (atEntry_of_not_written m c main_arg3 (by decide)),
    ((h c).2 main_arg4 (Pipeline.mem_restRefs_of main_arg4 (by decide) (by decide))).trans (atEntry_of_not_written m c main_arg4 (by decide)),
    ((h c).2 main_arg5 (Pipeline.mem_restRefs_of main_arg5 (by decide) (by decide))).trans (atEntry_of_not_written m c main_arg5 (by decide)),
    ((h c).2 main_arg6 (Pipeline.mem_restRefs_of main_arg6 (by decide) (by decide))).trans (atEntry_of_not_written m c main_arg6 (by decide)),
    ((h c).2 main_arg7 (Pipeline.mem_restRefs_of main_arg7 (by decide) (by decide))).trans (atEntry_of_not_written m c main_arg7 (by decide)),
    ((h c).2 main_arg8 (Pipeline.mem_restRefs_of main_arg8 (by decide) (by decide))).trans (atEntry_of_not_written m c main_arg8 (by decide)),
    ((h c).2 main_arg9 (Pipeline.mem_restRefs_of main_arg9 (by decide) (by decide))).trans (atEntry_of_not_written m c main_arg9 (by decide)),
    ((h c).2 main_arg10 (Pipeline.mem_restRefs_of main_arg10 (by decide) (by decide))).trans (atEntry_of_not_written m c main_arg10 (by decide)),
    ((h c).2 main_arg11 (Pipeline.mem_restRefs_of main_arg11 (by decide) (by decide))).trans (atEntry_of_not_written m c main_arg11 (by decide)),
    ((h c).2 main_arg12 (Pipeline.mem_restRefs_of main_arg12 (by decide) (by decide))).trans (atEntry_of_not_written m c main_arg12 (by decide)),
    ((h c).2 main_arg13 (Pipeline.mem_restRefs_of main_arg13 (by decide) (by decide))).trans (atEntry_of_not_written m c main_arg13 (by decide))⟩

/-- So a run to the frame post is a run that keeps the arguments. -/
theorem frame_of_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => args_kept m dats hA r h c) h

/-! ## The body -/

abbrev whole0 : Rect S256x1024 := Rect.unit (s := S256x1024) ![0, 0] S256x1024.size inb_S256x1024_S256x1024_0_0
abbrev whole1 : Rect S256x1024 := Rect.unit (s := S256x1024) ![0, 0] S256x1024.size inb_S256x1024_S256x1024_0_0
abbrev whole2 : Rect S1024x4096 := Rect.unit (s := S1024x4096) ![0, 0] S1024x4096.size inb_S1024x4096_S1024x4096_0_0
abbrev whole3 : Rect S1024x3072 := Rect.unit (s := S1024x3072) ![0, 0] S1024x3072.size inb_S1024x3072_S1024x3072_0_0
abbrev whole4 : Rect S1024x1024 := Rect.unit (s := S1024x1024) ![0, 0] S1024x1024.size inb_S1024x1024_S1024x1024_0_0
abbrev whole5 : Rect S1x3072 := Rect.unit (s := S1x3072) ![0, 0] S1x3072.size inb_S1x3072_S1x3072_0_0
abbrev whole6 : Rect S1x1024 := Rect.unit (s := S1x1024) ![0, 0] S1x1024.size inb_S1x1024_S1x1024_0_0
abbrev whole7 : Rect S256x1024 := Rect.unit (s := S256x1024) ![0, 0] S256x1024.size inb_S256x1024_S256x1024_0_0

/-- What the body leaves in the output window's buffer, from the seven input blocks: its one store, of the new
    state's block, over the whole buffer. -/
def newBlock (x0 : Vec F S256x1024 .bf16) (x1 : Vec F S256x1024 .f32) (x2 : Vec F S1024x4096 .bf16) (x3 : Vec F S1024x3072 .bf16) (x4 : Vec F S1024x1024 .bf16) (x5 : Vec F S1x3072 .f32) (x6 : Vec F S1x1024 .f32) : Vec F S256x1024 .f32 :=
  View.canon [⟨whole7, k0_pay1 (View.ld x0 whole0) (View.ld x1 whole1) (View.ld x2 whole2) (View.ld x3 whole3) (View.ld x4 whole4) (View.ld x5 whole5) (View.ld x6 whole6)⟩]

/-- The one store covers the buffer. -/
theorem store_covers (p0 : Vec F S256x1024 .f32) (y : S256x1024.Idx) :
    ∃ pc ∈ ([⟨whole7, p0⟩] : List (View.Piece (Elt F) S256x1024 .f32)), y ∈ pc.1.set :=
  View.cover_of_tiled [⟨whole7, p0⟩] S256x1024.size (by rfl) y

set_option maxHeartbeats 1000000 in
/-- The body on whole staging buffers, the seven inputs' at contents `xK` and the output's at anything, runs to
    its end leaving the inputs' as they were and the output's at `newBlock` of them. -/
theorem body_triple (c : Dev nD) (E : Set ℕ) (i : grid0.Coords) (a0 : Memref sig .tc .vmem S256x1024 .bf16) (ha0 : a0.IsWhole) (a1 : Memref sig .tc .vmem S256x1024 .f32) (ha1 : a1.IsWhole) (a2 : Memref sig .tc .vmem S1024x4096 .bf16) (ha2 : a2.IsWhole) (a3 : Memref sig .tc .vmem S1024x3072 .bf16) (ha3 : a3.IsWhole) (a4 : Memref sig .tc .vmem S1024x1024 .bf16) (ha4 : a4.IsWhole) (a5 : Memref sig .tc .vmem S1x3072 .f32) (ha5 : a5.IsWhole) (a6 : Memref sig .tc .vmem S1x1024 .f32) (ha6 : a6.IsWhole) (a7 : Memref sig .tc .vmem S256x1024 .f32) (ha7 : a7.IsWhole)
    (x0 : Vec F S256x1024 .bf16) (x1 : Vec F S256x1024 .f32) (x2 : Vec F S1024x4096 .bf16) (x3 : Vec F S1024x3072 .bf16) (x4 : Vec F S1024x1024 .bf16) (x5 : Vec F S1x3072 .f32) (x6 : Vec F S1x1024 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (newBlock x0 x1 x2 x3 x4 x5 x6)) -∗ K ⟨⟩))
      ⊢ wp frame (wpE (defs₀ (F := F)) Variants.none c none) E (cc0__gru_kernel i a0 ha0 a1 ha1 a2 ha2 a3 ha3 a4 ha4 a5 ha5 a6 ha6 a7 ha7) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (store_covers _)

/-! ## The proof data -/

/-- On core `c`: the arrays as the region finds them; after the body at point `t` each input's buffer at its block
    and the output's at `newBlock` of the seven input blocks; the plain invariant; nothing owed; full shares. -/
def pdata (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => newBlock (blockAt m c 0 t) (blockAt m c 1 t) (blockAt m c 2 t) (blockAt m c 3 t) (blockAt m c 4 t) (blockAt m c 5 t) (blockAt m c 6 t)
  Φ _ := Pipeline.ΦA spec0 c
  q _ := fullShare
  owed _ := 0

theorem pdata_A (c : Dev nD) (w : Fin cfg0.W) : (pdata m 0 c).A w = atEntry m c (Pipeline.arrRef spec0 w) := by
  dsimp only [pdata]

theorem after0 (c : Dev nD) (t : Fin cfg0.N) : (pdata m 0 c).after 0 t = blockAt m c 0 t := by dsimp only [pdata]
theorem after1 (c : Dev nD) (t : Fin cfg0.N) : (pdata m 0 c).after 1 t = blockAt m c 1 t := by dsimp only [pdata]
theorem after2 (c : Dev nD) (t : Fin cfg0.N) : (pdata m 0 c).after 2 t = blockAt m c 2 t := by dsimp only [pdata]
theorem after3 (c : Dev nD) (t : Fin cfg0.N) : (pdata m 0 c).after 3 t = blockAt m c 3 t := by dsimp only [pdata]
theorem after4 (c : Dev nD) (t : Fin cfg0.N) : (pdata m 0 c).after 4 t = blockAt m c 4 t := by dsimp only [pdata]
theorem after5 (c : Dev nD) (t : Fin cfg0.N) : (pdata m 0 c).after 5 t = blockAt m c 5 t := by dsimp only [pdata]
theorem after6 (c : Dev nD) (t : Fin cfg0.N) : (pdata m 0 c).after 6 t = blockAt m c 6 t := by dsimp only [pdata]
theorem after7 (c : Dev nD) (t : Fin cfg0.N) : (pdata m 0 c).after 7 t = newBlock (blockAt m c 0 t) (blockAt m c 1 t) (blockAt m c 2 t) (blockAt m c 3 t) (blockAt m c 4 t) (blockAt m c 5 t) (blockAt m c 6 t) := by dsimp only [pdata]

theorem before0 (c : Dev nD) (t : Fin cfg0.N) (d) : (pdata m 0 c).before 0 t d = blockAt m c 0 t :=
  held0 m (pdata m 0 c) (pdata_A m c 0) (after0 m c) t d
theorem before1 (c : Dev nD) (t : Fin cfg0.N) (d) : (pdata m 0 c).before 1 t d = blockAt m c 1 t :=
  held1 m (pdata m 0 c) (pdata_A m c 1) (after1 m c) t d
theorem before2 (c : Dev nD) (t : Fin cfg0.N) (d) : (pdata m 0 c).before 2 t d = blockAt m c 2 t :=
  held2 m (pdata m 0 c) (pdata_A m c 2) (after2 m c) t d
theorem before3 (c : Dev nD) (t : Fin cfg0.N) (d) : (pdata m 0 c).before 3 t d = blockAt m c 3 t :=
  held3 m (pdata m 0 c) (pdata_A m c 3) (after3 m c) t d
theorem before4 (c : Dev nD) (t : Fin cfg0.N) (d) : (pdata m 0 c).before 4 t d = blockAt m c 4 t :=
  held4 m (pdata m 0 c) (pdata_A m c 4) (after4 m c) t d
theorem before5 (c : Dev nD) (t : Fin cfg0.N) (d) : (pdata m 0 c).before 5 t d = blockAt m c 5 t :=
  held5 m (pdata m 0 c) (pdata_A m c 5) (after5 m c) t d
theorem before6 (c : Dev nD) (t : Fin cfg0.N) (d) : (pdata m 0 c).before 6 t d = blockAt m c 6 t :=
  held6 m (pdata m 0 c) (pdata_A m c 6) (after6 m c) t d

/-! ## The body obligation -/

/-- What the body is called with at point `t`, -/
def bodyPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d))
    ∗ (∃ d, owns (c : Thread nD τ) (st0_5 t) fullShare ((pdata m 0 c).before 5 t d))
    ∗ (∃ d, owns (c : Thread nD τ) (st0_6 t) fullShare ((pdata m 0 c).before 6 t d))
    ∗ (∃ d, owns (c : Thread nD τ) (st0_7 t) fullShare ((pdata m 0 c).before 7 t d)))

/-- and what it returns. -/
def bodyPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t)
    ∗ owns (c : Thread nD τ) (st0_5 t) fullShare ((pdata m 0 c).after 5 t)
    ∗ owns (c : Thread nD τ) (st0_6 t) fullShare ((pdata m 0 c).after 6 t)
    ∗ owns (c : Thread nD τ) (st0_7 t) fullShare ((pdata m 0 c).after 7 t))

/-- The body at any point: the inputs' buffers hold their blocks, so the body's triple applies; the invariant and
    what the core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (pdata m 0 c).Φ t.succ = (pdata m 0 c).Φ t.castSucc from rfl,
    show (pdata m 0 c).owesAt () t.succ = (pdata m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (pdata (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates; at its end every array of the pipeline holds what the library
    computes from the proof data and every other unscoped buffer what the region found. -/
theorem run_main : θ_run defs (onTc (τ := τ) (main (F := F))) (s₀ m ρ) (Pipeline.FramePost cfgs (pdata m) 0 (atEntry m)) :=
  Pipeline.θ_run_frame cfgs (pdata m) (0 : Fin 1) launch0 defs₀ Variants.none m ρ main
    (hbody := fun c => (body_obligation m c).loose) (hshare := fun c => (pdata m 0 c).share_full fun _ => rfl)
    (howed := fun _ _ => rfl) (V := atEntry m) (hmain := main_upto_region m Variants.none) (hA := pdata_A m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of_run m ρ (pdata m) (pdata_A m) (run_main m ρ)

end Cert.Kernel.Cell

end
-- ==== Proof.FrameKernelIdeal.lean ====
/-
  The frame of the gated recurrent cell's program: every weakly fair execution of @main terminates without a fault
  and leaves the fourteen argument arrays as they were.

  @main is nine host operations and one region. The host operations join the four input-side weight matrices
  [Uz | Ug | Ur | Uh] along the columns, join the three state-side matrices [Wz | Wg | Wr] likewise, join the three
  gate biases into one row, reshape the two bias rows to [1, n], and change the float format of X and of the
  three weight arrays; each writes a buffer of its own, so no argument array is written before the region.
  The region runs the body at 64 grid points. Point t is handed rows 256 t … 256 t + 255 of X and of the state S
  and the five weight and bias arrays whole; it loads all seven, computes one block of the new state — a pure
  function of the seven loaded blocks — and stores it over the whole output block, which is written back to rows
  256 t … 256 t + 255 of the result. The body touches nothing else, so the region's invariant is the plain one
  (the scoped rest of the core and its generator register, unread), and the frame launch of the pipeline library
  applies: what is owed here is the contents of the buffers when the region is entered, the body's triple, and
  the proof data saying what each window's staging buffer holds after each point.
-/
import proofs.«118173_j51419348467841_2_alg».proof.Proof.Gen.KernelIdeal.Launch
import proofs.«118173_j51419348467841_2_alg».proof.Proof.Gen.KernelIdeal.Skeleton
import proofs.«118173_j51419348467841_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- What core `c`'s buffers hold when the region is entered: the launch contents rewritten by the nine host
    operations in order. -/
abbrev atEntry (c : Dev nD) (b : Ref sig .tc) : Buf (Elt F) ((c : Thread nD τ).loc b) :=
  StableHlo.after hostOps0 (fun b => m (c, b)) b

/-- None of the nine operations allocates. -/
theorem prefix_fresh : (hostOps0 : List (HloOp τ sig (Elt F))).Forall fun op => op.fresh = ∅ := by
  simp only [List.Forall]; repeat' constructor

/-- @main is the nine host operations and then the region. -/
theorem main_upto_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub prefix_fresh main_chain

/-- The nine buffers the host operations write: the joined arrays, their copies in the narrow format, the
    reshaped bias rows and the narrow copy of X. -/
abbrev prefixWritten : List (Ref sig .tc) := [main_v0, main_v1, main_v2, main_v3, main_v4, main_v5, main_v6, main_v7, main_v8]

theorem prefix_writes : (hostOps0 : List (HloOp τ sig (Elt F))).Forall fun op =>
    op.writes ⊆ (prefixWritten.map (Proc.devRef (τ := τ) .tc)).toFinset := by
  simp only [hostOps0, List.Forall, StableHlo.nary_writes, StableHlo.unary_writes, StableHlo.reshape_writes,
    Finset.singleton_subset_iff, List.mem_toFinset, List.mem_map, prefixWritten]
  refine ⟨⟨main_v0, by decide, rfl⟩, ⟨main_v1, by decide, rfl⟩, ⟨main_v2, by decide, rfl⟩, ⟨main_v3, by decide, rfl⟩,
    ⟨main_v4, by decide, rfl⟩, ⟨main_v5, by decide, rfl⟩, ⟨main_v6, by decide, rfl⟩, ⟨main_v7, by decide, rfl⟩, ⟨main_v8, by decide, rfl⟩⟩

/-- A buffer that is none of those nine is found by the region as launched. -/
theorem atEntry_of_not_written (c : Dev nD) (b : Ref sig .tc) (hb : b ∉ prefixWritten) :
    atEntry m c b = m ((c : Thread nD τ).loc b) :=
  StableHlo.after_of_writes_sub hostOps0 _ prefix_writes hb

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's staging buffer holds the window's block at every point, whether the point fetched it or the
    block index has not moved since the fetch: the body only reads it. -/
theorem held0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's staging buffer holds the window's block at every point, whether the point fetched it or the
    block index has not moved since the fetch: the body only reads it. -/
theorem held1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's staging buffer holds the window's block at every point, whether the point fetched it or the
    block index has not moved since the fetch: the body only reads it. -/
theorem held2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's staging buffer holds the window's block at every point, whether the point fetched it or the
    block index has not moved since the fetch: the body only reads it. -/
theorem held3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's staging buffer holds the window's block at every point, whether the point fetched it or the
    block index has not moved since the fetch: the body only reads it. -/
theorem held4 {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's staging buffer holds the window's block at every point, whether the point fetched it or the
    block index has not moved since the fetch: the body only reads it. -/
theorem held5 {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's staging buffer holds the window's block at every point, whether the point fetched it or the
    block index has not moved since the fetch: the body only reads it. -/
theorem held6 {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The frame from a run of the launch -/

/-- In a state satisfying the library's frame post — every array of the pipeline at what the proof data compute,
    every other unscoped buffer as the region found it — the argument arrays are as launched: the state S is an
    input window's array, kept by the library; the other thirteen are staged by no window and written by no host
    operation. -/
theorem args_kept (dats : (p : Fin 1) → (c : Dev nD) → Dat τ (Elt F) Unit ℕ (UR sig nD τ) ℕ (cfgs p) c)
    (hA : ∀ c w, (dats 0 c).A w = atEntry m c (Pipeline.arrRef spec0 w))
    (r : PUnit × MemSt nD τ sig (Elt F)) (h : Pipeline.FramePost cfgs dats 0 (atEntry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).2 main_arg0 (Pipeline.mem_restRefs_of main_arg0 (by decide) (by decide))).trans (atEntry_of_not_written m c main_arg0 (by decide)),
    ((h c).1 1).trans (((dats 0 c).arrAt_in 1 rfl _).trans ((hA c 1).trans (atEntry_of_not_written m c main_arg1 (by decide)))),
    ((h c).2 main_arg2 (Pipeline.mem_restRefs_of main_arg2 (by decide) (by decide))).trans (atEntry_of_not_written m c main_arg2 (by decide)),
    ((h c).2 main_arg3 (Pipeline.mem_restRefs_of main_arg3 (by decide) (by decide))).trans (atEntry_of_not_written m c main_arg3 (by decide)),
    ((h c).2 main_arg4 (Pipeline.mem_restRefs_of main_arg4 (by decide) (by decide))).trans (atEntry_of_not_written m c main_arg4 (by decide)),
    ((h c).2 main_arg5 (Pipeline.mem_restRefs_of main_arg5 (by decide) (by decide))).trans (atEntry_of_not_written m c main_arg5 (by decide)),
    ((h c).2 main_arg6 (Pipeline.mem_restRefs_of main_arg6 (by decide) (by decide))).trans (atEntry_of_not_written m c main_arg6 (by decide)),
    ((h c).2 main_arg7 (Pipeline.mem_restRefs_of main_arg7 (by decide) (by decide))).trans (atEntry_of_not_written m c main_arg7 (by decide)),
    ((h c).2 main_arg8 (Pipeline.mem_restRefs_of main_arg8 (by decide) (by decide))).trans (atEntry_of_not_written m c main_arg8 (by decide)),
    ((h c).2 main_arg9 (Pipeline.mem_restRefs_of main_arg9 (by decide) (by decide))).trans (atEntry_of_not_written m c main_arg9 (by decide)),
    ((h c).2 main_arg10 (Pipeline.mem_restRefs_of main_arg10 (by decide) (by decide))).trans (atEntry_of_not_written m c main_arg10 (by decide)),
    ((h c).2 main_arg11 (Pipeline.mem_restRefs_of main_arg11 (by decide) (by decide))).trans (atEntry_of_not_written m c main_arg11 (by decide)),
    ((h c).2 main_arg12 (Pipeline.mem_restRefs_of main_arg12 (by decide) (by decide))).trans (atEntry_of_not_written m c main_arg12 (by decide)),
    ((h c).2 main_arg13 (Pipeline.mem_restRefs_of main_arg13 (by decide) (by decide))).trans (atEntry_of_not_written m c main_arg13 (by decide))⟩

/-- So a run to the frame post is a run that keeps the arguments. -/
theorem frame_of_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => args_kept m dats hA r h c) h

/-! ## The body -/

abbrev whole0 : Rect S256x1024 := Rect.unit (s := S256x1024) ![0, 0] S256x1024.size inb_S256x1024_S256x1024_0_0
abbrev whole1 : Rect S256x1024 := Rect.unit (s := S256x1024) ![0, 0] S256x1024.size inb_S256x1024_S256x1024_0_0
abbrev whole2 : Rect S1024x4096 := Rect.unit (s := S1024x4096) ![0, 0] S1024x4096.size inb_S1024x4096_S1024x4096_0_0
abbrev whole3 : Rect S1024x3072 := Rect.unit (s := S1024x3072) ![0, 0] S1024x3072.size inb_S1024x3072_S1024x3072_0_0
abbrev whole4 : Rect S1024x1024 := Rect.unit (s := S1024x1024) ![0, 0] S1024x1024.size inb_S1024x1024_S1024x1024_0_0
abbrev whole5 : Rect S1x3072 := Rect.unit (s := S1x3072) ![0, 0] S1x3072.size inb_S1x3072_S1x3072_0_0
abbrev whole6 : Rect S1x1024 := Rect.unit (s := S1x1024) ![0, 0] S1x1024.size inb_S1x1024_S1x1024_0_0
abbrev whole7 : Rect S256x1024 := Rect.unit (s := S256x1024) ![0, 0] S256x1024.size inb_S256x1024_S256x1024_0_0

/-- What the body leaves in the output window's buffer, from the seven input blocks: its one store, of the new
    state's block, over the whole buffer. -/
def newBlock (x0 : Vec F S256x1024 .bf16) (x1 : Vec F S256x1024 .f32) (x2 : Vec F S1024x4096 .bf16) (x3 : Vec F S1024x3072 .bf16) (x4 : Vec F S1024x1024 .bf16) (x5 : Vec F S1x3072 .f32) (x6 : Vec F S1x1024 .f32) : Vec F S256x1024 .f32 :=
  View.canon [⟨whole7, k0_pay1 (View.ld x0 whole0) (View.ld x1 whole1) (View.ld x2 whole2) (View.ld x3 whole3) (View.ld x4 whole4) (View.ld x5 whole5) (View.ld x6 whole6)⟩]

/-- The one store covers the buffer. -/
theorem store_covers (p0 : Vec F S256x1024 .f32) (y : S256x1024.Idx) :
    ∃ pc ∈ ([⟨whole7, p0⟩] : List (View.Piece (Elt F) S256x1024 .f32)), y ∈ pc.1.set :=
  View.cover_of_tiled [⟨whole7, p0⟩] S256x1024.size (by rfl) y

set_option maxHeartbeats 1000000 in
/-- The body on whole staging buffers, the seven inputs' at contents `xK` and the output's at anything, runs to
    its end leaving the inputs' as they were and the output's at `newBlock` of them. -/
theorem body_triple (c : Dev nD) (E : Set ℕ) (i : grid0.Coords) (a0 : Memref sig .tc .vmem S256x1024 .bf16) (ha0 : a0.IsWhole) (a1 : Memref sig .tc .vmem S256x1024 .f32) (ha1 : a1.IsWhole) (a2 : Memref sig .tc .vmem S1024x4096 .bf16) (ha2 : a2.IsWhole) (a3 : Memref sig .tc .vmem S1024x3072 .bf16) (ha3 : a3.IsWhole) (a4 : Memref sig .tc .vmem S1024x1024 .bf16) (ha4 : a4.IsWhole) (a5 : Memref sig .tc .vmem S1x3072 .f32) (ha5 : a5.IsWhole) (a6 : Memref sig .tc .vmem S1x1024 .f32) (ha6 : a6.IsWhole) (a7 : Memref sig .tc .vmem S256x1024 .f32) (ha7 : a7.IsWhole)
    (x0 : Vec F S256x1024 .bf16) (x1 : Vec F S256x1024 .f32) (x2 : Vec F S1024x4096 .bf16) (x3 : Vec F S1024x3072 .bf16) (x4 : Vec F S1024x1024 .bf16) (x5 : Vec F S1x3072 .f32) (x6 : Vec F S1x1024 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (newBlock x0 x1 x2 x3 x4 x5 x6)) -∗ K ⟨⟩))
      ⊢ wp frame (wpE (defs₀ (F := F)) Variants.none c none) E (cc0__gru_kernel i a0 ha0 a1 ha1 a2 ha2 a3 ha3 a4 ha4 a5 ha5 a6 ha6 a7 ha7) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (store_covers _)

/-! ## The proof data -/

/-- On core `c`: the arrays as the region finds them; after the body at point `t` each input's buffer at its block
    and the output's at `newBlock` of the seven input blocks; the plain invariant; nothing owed; full shares. -/
def pdata (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => newBlock (blockAt m c 0 t) (blockAt m c 1 t) (blockAt m c 2 t) (blockAt m c 3 t) (blockAt m c 4 t) (blockAt m c 5 t) (blockAt m c 6 t)
  Φ _ := Pipeline.ΦA spec0 c
  q _ := fullShare
  owed _ := 0

theorem pdata_A (c : Dev nD) (w : Fin cfg0.W) : (pdata m 0 c).A w = atEntry m c (Pipeline.arrRef spec0 w) := by
  dsimp only [pdata]

theorem after0 (c : Dev nD) (t : Fin cfg0.N) : (pdata m 0 c).after 0 t = blockAt m c 0 t := by dsimp only [pdata]
theorem after1 (c : Dev nD) (t : Fin cfg0.N) : (pdata m 0 c).after 1 t = blockAt m c 1 t := by dsimp only [pdata]
theorem after2 (c : Dev nD) (t : Fin cfg0.N) : (pdata m 0 c).after 2 t = blockAt m c 2 t := by dsimp only [pdata]
theorem after3 (c : Dev nD) (t : Fin cfg0.N) : (pdata m 0 c).after 3 t = blockAt m c 3 t := by dsimp only [pdata]
theorem after4 (c : Dev nD) (t : Fin cfg0.N) : (pdata m 0 c).after 4 t = blockAt m c 4 t := by dsimp only [pdata]
theorem after5 (c : Dev nD) (t : Fin cfg0.N) : (pdata m 0 c).after 5 t = blockAt m c 5 t := by dsimp only [pdata]
theorem after6 (c : Dev nD) (t : Fin cfg0.N) : (pdata m 0 c).after 6 t = blockAt m c 6 t := by dsimp only [pdata]
theorem after7 (c : Dev nD) (t : Fin cfg0.N) : (pdata m 0 c).after 7 t = newBlock (blockAt m c 0 t) (blockAt m c 1 t) (blockAt m c 2 t) (blockAt m c 3 t) (blockAt m c 4 t) (blockAt m c 5 t) (blockAt m c 6 t) := by dsimp only [pdata]

theorem before0 (c : Dev nD) (t : Fin cfg0.N) (d) : (pdata m 0 c).before 0 t d = blockAt m c 0 t :=
  held0 m (pdata m 0 c) (pdata_A m c 0) (after0 m c) t d
theorem before1 (c : Dev nD) (t : Fin cfg0.N) (d) : (pdata m 0 c).before 1 t d = blockAt m c 1 t :=
  held1 m (pdata m 0 c) (pdata_A m c 1) (after1 m c) t d
theorem before2 (c : Dev nD) (t : Fin cfg0.N) (d) : (pdata m 0 c).before 2 t d = blockAt m c 2 t :=
  held2 m (pdata m 0 c) (pdata_A m c 2) (after2 m c) t d
theorem before3 (c : Dev nD) (t : Fin cfg0.N) (d) : (pdata m 0 c).before 3 t d = blockAt m c 3 t :=
  held3 m (pdata m 0 c) (pdata_A m c 3) (after3 m c) t d
theorem before4 (c : Dev nD) (t : Fin cfg0.N) (d) : (pdata m 0 c).before 4 t d = blockAt m c 4 t :=
  held4 m (pdata m 0 c) (pdata_A m c 4) (after4 m c) t d
theorem before5 (c : Dev nD) (t : Fin cfg0.N) (d) : (pdata m 0 c).before 5 t d = blockAt m c 5 t :=
  held5 m (pdata m 0 c) (pdata_A m c 5) (after5 m c) t d
theorem before6 (c : Dev nD) (t : Fin cfg0.N) (d) : (pdata m 0 c).before 6 t d = blockAt m c 6 t :=
  held6 m (pdata m 0 c) (pdata_A m c 6) (after6 m c) t d

/-! ## The body obligation -/

/-- What the body is called with at point `t`, -/
def bodyPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d))
    ∗ (∃ d, owns (c : Thread nD τ) (st0_5 t) fullShare ((pdata m 0 c).before 5 t d))
    ∗ (∃ d, owns (c : Thread nD τ) (st0_6 t) fullShare ((pdata m 0 c).before 6 t d))
    ∗ (∃ d, owns (c : Thread nD τ) (st0_7 t) fullShare ((pdata m 0 c).before 7 t d)))

/-- and what it returns. -/
def bodyPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t)
    ∗ owns (c : Thread nD τ) (st0_5 t) fullShare ((pdata m 0 c).after 5 t)
    ∗ owns (c : Thread nD τ) (st0_6 t) fullShare ((pdata m 0 c).after 6 t)
    ∗ owns (c : Thread nD τ) (st0_7 t) fullShare ((pdata m 0 c).after 7 t))

/-- The body at any point: the inputs' buffers hold their blocks, so the body's triple applies; the invariant and
    what the core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (pdata m 0 c).Φ t.succ = (pdata m 0 c).Φ t.castSucc from rfl,
    show (pdata m 0 c).owesAt () t.succ = (pdata m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (pdata (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates; at its end every array of the pipeline holds what the library
    computes from the proof data and every other unscoped buffer what the region found. -/
theorem run_main : θ_run defs (onTc (τ := τ) (main (F := F))) (s₀ m ρ) (Pipeline.FramePost cfgs (pdata m) 0 (atEntry m)) :=
  Pipeline.θ_run_frame cfgs (pdata m) (0 : Fin 1) launch0 defs₀ Variants.none m ρ main
    (hbody := fun c => (body_obligation m c).loose) (hshare := fun c => (pdata m 0 c).share_full fun _ => rfl)
    (howed := fun _ _ => rfl) (V := atEntry m) (hmain := main_upto_region m Variants.none) (hA := pdata_A m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of_run m ρ (pdata m) (pdata_A m) (run_main m ρ)

end Cert.KernelIdeal.Cell

end
-- ==== Proof.CellSpec.lean ====
/-
  The gated recurrent cell, row by row, on the extended reals — the one function both programs compute.

  For a row x of the input X and the row s of the state S (each of 1024 entries), weights U, W of 1024 x 3072
  (the three gates side by side: update | mix | reset), a bias b of 3072 entries, and the candidate's weights
  Uh, Wh of 1024 x 1024 with bias bh:
      gate j  = tanh ((sum_k x k * U k j  +  sum_k s k * W k j)  +  b j)              (j < 3072)
      cand q  = tanh ((sum_k x k * Uh k q  +  sum_k (s k * gate (2048 + k)) * Wh k q)  +  bh q)
      next q  = (1 - gate (1024 + q)) * cand q  +  gate q * s q                         (q < 1024)
  The kernel multiplies X by the four matrices [Uz | Ug | Ur | Uh] joined along the columns and takes columns
  0 .. 3071 and 3072 .. 4095 of the product; the reference multiplies by [Uz | Ug | Ur] and by Uh separately.
  Column j of a product depends on column j of the right factor only, so what joins the two is how a join of
  matrices reads at a column: the join of four, read in its first 3072 columns, is the join of the first three,
  and read in its last 1024 columns it is the fourth. No law of arithmetic on the extended reals is used: both
  programs add and multiply the same numbers in the same order.
-/
import Idealize.ShloMosaic.PureOps.Ideal
import Idealize.ShloMosaic.Lib.ValueIdx
import Idealize.ShloMosaic.Lib.Pipeline.Value

noncomputable section

namespace Cert.GruCell

open Idealize.ShloMosaic Idealize.ShloMosaic.ValueIdx

abbrev Rows : Shape := ⟨2, ![16384, 1024]⟩
abbrev Sq : Shape := ⟨2, ![1024, 1024]⟩
abbrev Wide3 : Shape := ⟨2, ![1024, 3072]⟩
abbrev Wide4 : Shape := ⟨2, ![1024, 4096]⟩
abbrev Len1 : Shape := ⟨1, ![1024]⟩
abbrev Len3 : Shape := ⟨1, ![3072]⟩

/-- The float 1.0, by its word. -/
abbrev one : EReal := Ideal.ofBits .f32 0x3F800000#32

/-- Column q of the update gate, of the mix gate and of the reset gate among the 3072 joined columns. -/
abbrev zc (q : Fin 1024) : Fin 3072 := ⟨q.val, by have := q.isLt; omega⟩
abbrev gc (q : Fin 1024) : Fin 3072 := ⟨1024 + q.val, by have := q.isLt; omega⟩
abbrev rc (q : Fin 1024) : Fin 3072 := ⟨2048 + q.val, by have := q.isLt; omega⟩
/-- Column j of the three gates, and column q of the candidate, among the 4096 joined columns. -/
abbrev c4 (j : Fin 3072) : Fin 4096 := ⟨j.val, by have := j.isLt; omega⟩
abbrev hc (q : Fin 1024) : Fin 4096 := ⟨3072 + q.val, by have := q.isLt; omega⟩

/-- One gate's value at joined column j, from the rows x and s. -/
def gate (x s : Fin 1024 → EReal) (U W : Fin 1024 → Fin 3072 → EReal) (b : Fin 3072 → EReal) (j : Fin 3072) : EReal :=
  Ideal.tanh (((∑ k : Fin 1024, x k * U k j) + ∑ k : Fin 1024, s k * W k j) + b j)

/-- The candidate state at column q: the state row enters scaled entry by entry by the reset gate. -/
def cand (x s : Fin 1024 → EReal) (U W : Fin 1024 → Fin 3072 → EReal) (b : Fin 3072 → EReal)
    (Uh Wh : Fin 1024 → Fin 1024 → EReal) (bh : Fin 1024 → EReal) (q : Fin 1024) : EReal :=
  Ideal.tanh (((∑ k : Fin 1024, x k * Uh k q) + ∑ k : Fin 1024, (s k * gate x s U W b (rc k)) * Wh k q) + bh q)

/-- The new state at column q. -/
def next (x s : Fin 1024 → EReal) (U W : Fin 1024 → Fin 3072 → EReal) (b : Fin 3072 → EReal)
    (Uh Wh : Fin 1024 → Fin 1024 → EReal) (bh : Fin 1024 → EReal) (q : Fin 1024) : EReal :=
  (one - gate x s U W b (gc q)) * cand x s U W b Uh Wh bh q + gate x s U W b (zc q) * s q

/-! ## A join of square matrices along the columns, read at a column -/

section Join

variable {α : Type}

/-- Three, and four, square matrices fill the wide shapes along the columns. -/
theorem joins3 : Shape.Concatenates [Sq, Sq, Sq] Wide3 1 := by decide
theorem joins4 : Shape.Concatenates [Sq, Sq, Sq, Sq] Wide4 1 := by decide
theorem joinsB : Shape.Concatenates [Len1, Len1, Len1] Len3 0 := by decide

/-- Three matrices side by side. -/
abbrev join3 (A B C : Sq.Idx → α) : Wide3.Idx → α :=
  concatenate Wide3 1 [⟨Sq, A⟩, ⟨Sq, B⟩, ⟨Sq, C⟩] joins3
/-- Four matrices side by side. -/
abbrev join4 (A B C D : Sq.Idx → α) : Wide4.Idx → α :=
  concatenate Wide4 1 [⟨Sq, A⟩, ⟨Sq, B⟩, ⟨Sq, C⟩, ⟨Sq, D⟩] joins4

/-- Three bias vectors end to end. -/
abbrev joinB (a b c : Len1.Idx → α) : Len3.Idx → α :=
  concatenate Len3 0 [⟨Len1, a⟩, ⟨Len1, b⟩, ⟨Len1, c⟩] joinsB

/-- Off the joined axis the index is kept. -/
private theorem off_axis (k : Fin 1024) {N : Nat} (c : Fin N) (q : Fin 1024) :
    ∀ b : Fin Sq.rank, b.cast (rfl : Sq.rank = (⟨2, ![1024, N]⟩ : Shape).rank) ≠ (1 : Fin 2) →
      ((ix2 k q : Sq.Idx) b).val = ((ix2 k c : (⟨2, ![1024, N]⟩ : Shape).Idx) (b.cast rfl)).val := fun b hb => by
  match b with
  | ⟨0, _⟩ => rfl
  | ⟨1, _⟩ => exact absurd rfl hb

theorem join3_at0 (A B C : Sq.Idx → α) (k q : Fin 1024) (c : Fin 3072) (hc : 0 + q.val = c.val) :
    join3 A B C (ix2 k c) = A (ix2 k q) :=
  concatenate_apply_piece (t := Wide3) (1 : Fin 2) [⟨Sq, A⟩, ⟨Sq, B⟩, ⟨Sq, C⟩] joins3 (ix2 k c) 0 (by show (0 : Nat) < 3; omega) Sq A rfl rfl 0 rfl (ix2 k q) (off_axis k c q) hc
theorem join3_at1 (A B C : Sq.Idx → α) (k q : Fin 1024) (c : Fin 3072) (hc : 1024 + q.val = c.val) :
    join3 A B C (ix2 k c) = B (ix2 k q) :=
  concatenate_apply_piece (t := Wide3) (1 : Fin 2) [⟨Sq, A⟩, ⟨Sq, B⟩, ⟨Sq, C⟩] joins3 (ix2 k c) 1 (by show (1 : Nat) < 3; omega) Sq B rfl rfl 1024 rfl (ix2 k q) (off_axis k c q) hc
theorem join3_at2 (A B C : Sq.Idx → α) (k q : Fin 1024) (c : Fin 3072) (hc : 2048 + q.val = c.val) :
    join3 A B C (ix2 k c) = C (ix2 k q) :=
  concatenate_apply_piece (t := Wide3) (1 : Fin 2) [⟨Sq, A⟩, ⟨Sq, B⟩, ⟨Sq, C⟩] joins3 (ix2 k c) 2 (by show (2 : Nat) < 3; omega) Sq C rfl rfl 2048 rfl (ix2 k q) (off_axis k c q) hc

theorem join4_at0 (A B C D : Sq.Idx → α) (k q : Fin 1024) (c : Fin 4096) (hc : 0 + q.val = c.val) :
    join4 A B C D (ix2 k c) = A (ix2 k q) :=
  concatenate_apply_piece (t := Wide4) (1 : Fin 2) [⟨Sq, A⟩, ⟨Sq, B⟩, ⟨Sq, C⟩, ⟨Sq, D⟩] joins4 (ix2 k c) 0 (by show (0 : Nat) < 4; omega) Sq A rfl rfl 0 rfl (ix2 k q) (off_axis k c q) hc
theorem join4_at1 (A B C D : Sq.Idx → α) (k q : Fin 1024) (c : Fin 4096) (hc : 1024 + q.val = c.val) :
    join4 A B C D (ix2 k c) = B (ix2 k q) :=
  concatenate_apply_piece (t := Wide4) (1 : Fin 2) [⟨Sq, A⟩, ⟨Sq, B⟩, ⟨Sq, C⟩, ⟨Sq, D⟩] joins4 (ix2 k c) 1 (by show (1 : Nat) < 4; omega) Sq B rfl rfl 1024 rfl (ix2 k q) (off_axis k c q) hc
theorem join4_at2 (A B C D : Sq.Idx → α) (k q : Fin 1024) (c : Fin 4096) (hc : 2048 + q.val = c.val) :
    join4 A B C D (ix2 k c) = C (ix2 k q) :=
  concatenate_apply_piece (t := Wide4) (1 : Fin 2) [⟨Sq, A⟩, ⟨Sq, B⟩, ⟨Sq, C⟩, ⟨Sq, D⟩] joins4 (ix2 k c) 2 (by show (2 : Nat) < 4; omega) Sq C rfl rfl 2048 rfl (ix2 k q) (off_axis k c q) hc
theorem join4_at3 (A B C D : Sq.Idx → α) (k q : Fin 1024) (c : Fin 4096) (hc : 3072 + q.val = c.val) :
    join4 A B C D (ix2 k c) = D (ix2 k q) :=
  concatenate_apply_piece (t := Wide4) (1 : Fin 2) [⟨Sq, A⟩, ⟨Sq, B⟩, ⟨Sq, C⟩, ⟨Sq, D⟩] joins4 (ix2 k c) 3 (by show (3 : Nat) < 4; omega) Sq D rfl rfl 3072 rfl (ix2 k q) (off_axis k c q) hc

/-- The join of four matrices, read in its first 3072 columns, is the join of the first three. -/
theorem join4_left (A B C D : Sq.Idx → α) (k : Fin 1024) (j : Fin 3072) :
    join4 A B C D (ix2 k (c4 j)) = join3 A B C (ix2 k j) := by
  have hj := j.isLt
  rcases (by omega : j.val < 1024 ∨ (1024 ≤ j.val ∧ j.val < 2048) ∨ 2048 ≤ j.val) with h | h | h
  · rw [join4_at0 A B C D k ⟨j.val, h⟩ (c4 j) (by show 0 + j.val = j.val; omega),
      join3_at0 A B C k ⟨j.val, h⟩ j (by show 0 + j.val = j.val; omega)]
  · rw [join4_at1 A B C D k ⟨j.val - 1024, by omega⟩ (c4 j) (by show 1024 + (j.val - 1024) = j.val; omega),
      join3_at1 A B C k ⟨j.val - 1024, by omega⟩ j (by show 1024 + (j.val - 1024) = j.val; omega)]
  · rw [join4_at2 A B C D k ⟨j.val - 2048, by omega⟩ (c4 j) (by show 2048 + (j.val - 2048) = j.val; omega),
      join3_at2 A B C k ⟨j.val - 2048, by omega⟩ j (by show 2048 + (j.val - 2048) = j.val; omega)]

/-- Read in its last 1024 columns it is the fourth matrix. -/
theorem join4_right (A B C D : Sq.Idx → α) (k q : Fin 1024) :
    join4 A B C D (ix2 k (hc q)) = D (ix2 k q) :=
  join4_at3 A B C D k q (hc q) rfl

end Join

/-! ## The whole result -/

/-- The new state as one function of the fourteen argument arrays: entry (r, q) is `next` of row r of X and of S,
    the gates' weights the joins [Uz | Ug | Ur] and [Wz | Wg | Wr] with the joined bias, the candidate's Uh, Wh, bh. -/
def newState (X S : Rows.Idx → EReal) (Uz Ug Ur Uh Wz Wg Wr Wh : Sq.Idx → EReal) (bz bg br bh : Len1.Idx → EReal) :
    Rows.Idx → EReal := fun i =>
  next (fun k => X (ix2 (⟨(i 0).val, (i 0).isLt⟩ : Fin 16384) k)) (fun k => S (ix2 (⟨(i 0).val, (i 0).isLt⟩ : Fin 16384) k))
    (fun k j => join3 Uz Ug Ur (ix2 k j)) (fun k j => join3 Wz Wg Wr (ix2 k j)) (fun j => joinB bz bg br (ix1 j))
    (fun k q => Uh (ix2 k q)) (fun k q => Wh (ix2 k q)) (fun q => bh (ix1 q)) (⟨(i 1).val, (i 1).isLt⟩ : Fin 1024)

theorem newState_at (X S : Rows.Idx → EReal) (Uz Ug Ur Uh Wz Wg Wr Wh : Sq.Idx → EReal) (bz bg br bh : Len1.Idx → EReal)
    (r : Fin 16384) (q : Fin 1024) :
    newState X S Uz Ug Ur Uh Wz Wg Wr Wh bz bg br bh (ix2 r q)
      = next (fun k => X (ix2 r k)) (fun k => S (ix2 r k))
          (fun k j => join3 Uz Ug Ur (ix2 k j)) (fun k j => join3 Wz Wg Wr (ix2 k j)) (fun j => joinB bz bg br (ix1 j))
          (fun k q => Uh (ix2 k q)) (fun k q => Wh (ix2 k q)) (fun q => bh (ix1 q)) q := rfl

end Cert.GruCell

end
-- ==== Proof.KernelPayload.lean ====
/-
  What the kernel's body stores, read at one entry of the block: the cell's row function.

  The body's one store is a pure function of its seven loaded blocks — 256 rows of X and of the state S, the
  joined weights [Uz | Ug | Ur | Uh] (1024 x 4096) and [Wz | Wg | Wr] (1024 x 3072), Wh, and the two bias rows.
  At the extended reals the changes of float format are the identity and each matrix-unit product into a zero
  accumulator is the plain sum over the contracted axis; the slices pick columns; the bias rows are repeated
  down the 256 rows. So the entry at row p, column q is `GruCell.next` of row p of the X and S blocks, with the
  gates' weights the first 3072 columns of the joined U and the candidate's its last 1024 columns.
-/
import proofs.«118173_j51419348467841_2_alg».proof.Proof.Gen.KernelIdeal.Skeleton
import proofs.«118173_j51419348467841_2_alg».proof.Proof.CellSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.CellValue

open Cert.KernelIdeal Cert.KernelIdeal.Gen Cert.GruCell
open Idealize.ShloMosaic Idealize.ShloMosaic.ValueIdx

/-! ## The three products -/

/-- The matrix unit's product of a [256, 1024] block with a [1024, 4096] array into a zero accumulator, at row p and
    column j: the sum over the contracted axis. -/
theorem prod4096_at {φ₁ φ₂ : FTy} (l : FVec Ideal S256x1024 φ₁) (r : FVec Ideal S1024x4096 φ₂) (p : Fin 256) (j : Fin 4096) :
    matmul (F := Ideal) dot_S256x1024_S1024x4096_S256x4096_1_0_0_1_n_n none l r (constant (F := Ideal) S256x4096 .f32 0x00000000#32) (ix2 p j)
      = ∑ k : Fin 1024, l (ix2 p k) * r (ix2 k j) := by
  simp only [matmul]
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p j) ((contrEquiv1 dot_S256x1024_S1024x4096_S256x4096_1_0_0_1_n_n 1024 rfl rfl).symm k) = ix2 p k := funext fun a => Fin.ext (by
    match a with
    | ⟨0, _⟩ =>
      show (dot_S256x1024_S1024x4096_S256x4096_1_0_0_1_n_n.lhsIdx (ix2 p j) _ 0).val = p.val
      unfold DotDims.lhsIdx
      rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
      rfl
    | ⟨1, _⟩ => exact (dot_S256x1024_S1024x4096_S256x4096_1_0_0_1_n_n.lhsIdx_val_of_single rfl _ _).trans hk)
  have er : dot_S256x1024_S1024x4096_S256x4096_1_0_0_1_n_n.rhsIdx (ix2 p j) ((contrEquiv1 dot_S256x1024_S1024x4096_S256x4096_1_0_0_1_n_n 1024 rfl rfl).symm k) = ix2 k j := funext fun a => Fin.ext (by
    match a with
    | ⟨0, _⟩ => exact (dot_S256x1024_S1024x4096_S256x4096_1_0_0_1_n_n.rhsIdx_val_of_single rfl _ _).trans hk
    | ⟨1, _⟩ =>
      show (dot_S256x1024_S1024x4096_S256x4096_1_0_0_1_n_n.rhsIdx (ix2 p j) _ 1).val = j.val
      unfold DotDims.rhsIdx
      rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
      rfl)
  rw [el, er]

/-- The matrix unit's product of a [256, 1024] block with a [1024, 3072] array into a zero accumulator, at row p and
    column j: the sum over the contracted axis. -/
theorem prod3072_at {φ₁ φ₂ : FTy} (l : FVec Ideal S256x1024 φ₁) (r : FVec Ideal S1024x3072 φ₂) (p : Fin 256) (j : Fin 3072) :
    matmul (F := Ideal) dot_S256x1024_S1024x3072_S256x3072_1_0_0_1_n_n none l r (constant (F := Ideal) S256x3072 .f32 0x00000000#32) (ix2 p j)
      = ∑ k : Fin 1024, l (ix2 p k) * r (ix2 k j) := by
  simp only [matmul]
  rw [Ideal.matmul_constant_zero_apply, ← Equiv.sum_comp (contrEquiv1 dot_S256x1024_S1024x3072_S256x3072_1_0_0_1_n_n 1024 rfl rfl).symm]
  refine Finset.sum_congr rfl fun k _ => ?_
  have hk := contrEquiv1_symm_val dot_S256x1024_S1024x3072_S256x3072_1_0_0_1_n_n 1024 rfl rfl k
  have el : dot_S256x1024_S1024x3072_S256x3072_1_0_0_1_n_n.lhsIdx (ix2 p j) ((contrEquiv1 dot_S256x1024_S1024x3072_S256x3072_1_0_0_1_n_n 1024 rfl rfl).symm k) = ix2 p k := funext fun a => Fin.ext (by
    match a with
    | ⟨0, _⟩ =>
      show (dot_S256x1024_S1024x3072_S256x3072_1_0_0_1_n_n.lhsIdx (ix2 p j) _ 0).val = p.val
      unfold DotDims.lhsIdx
      rw [dif_neg (show ¬(0 : Fin S256x1024.rank) ∈ dot_S256x1024_S1024x3072_S256x3072_1_0_0_1_n_n.lhsBatch by decide), dif_pos (show (0 : Fin S256x1024.rank) ∈ dot_S256x1024_S1024x3072_S256x3072_1_0_0_1_n_n.lhsNonContracting by decide)]
      rfl
    | ⟨1, _⟩ => exact (dot_S256x1024_S1024x3072_S256x3072_1_0_0_1_n_n.lhsIdx_val_of_single rfl _ _).trans hk)
  have er : dot_S256x1024_S1024x3072_S256x3072_1_0_0_1_n_n.rhsIdx (ix2 p j) ((contrEquiv1 dot_S256x1024_S1024x3072_S256x3072_1_0_0_1_n_n 1024 rfl rfl).symm k) = ix2 k j := funext fun a => Fin.ext (by
    match a with
    | ⟨0, _⟩ => exact (dot_S256x1024_S1024x3072_S256x3072_1_0_0_1_n_n.rhsIdx_val_of_single rfl _ _).trans hk
    | ⟨1, _⟩ =>
      show (dot_S256x1024_S1024x3072_S256x3072_1_0_0_1_n_n.rhsIdx (ix2 p j) _ 1).val = j.val
      unfold DotDims.rhsIdx
      rw [dif_neg (show ¬(1 : Fin S1024x3072.rank) ∈ dot_S256x1024_S1024x3072_S256x3072_1_0_0_1_n_n.rhsBatch by decide), dif_pos (show (1 : Fin S1024x3072.rank) ∈ dot_S256x1024_S1024x3072_S256x3072_1_0_0_1_n_n.rhsNonContracting by decide)]
      rfl)
  rw [el, er]

/-- The matrix unit's product of a [256, 1024] block with a [1024, 1024] array into a zero accumulator, at row p and
    column j: the sum over the contracted axis. -/
theorem prod1024_at {φ₁ φ₂ : FTy} (l : FVec Ideal S256x1024 φ₁) (r : FVec Ideal S1024x1024 φ₂) (p : Fin 256) (j : Fin 1024) :
    matmul (F := Ideal) dot_S256x1024_S1024x1024_S256x1024_1_0_0_1_n_n none l r (constant (F := Ideal) S256x1024 .f32 0x00000000#32) (ix2 p j)
      = ∑ k : Fin 1024, l (ix2 p k) * r (ix2 k j) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p j) ((contrEquiv1 dot_S256x1024_S1024x1024_S256x1024_1_0_0_1_n_n 1024 rfl rfl).symm k) = ix2 p k := funext fun a => Fin.ext (by
    match a with
    | ⟨0, _⟩ =>
      show (dot_S256x1024_S1024x1024_S256x1024_1_0_0_1_n_n.lhsIdx (ix2 p j) _ 0).val = p.val
      unfold DotDims.lhsIdx
      rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
      rfl
    | ⟨1, _⟩ => exact (dot_S256x1024_S1024x1024_S256x1024_1_0_0_1_n_n.lhsIdx_val_of_single rfl _ _).trans hk)
  have er : dot_S256x1024_S1024x1024_S256x1024_1_0_0_1_n_n.rhsIdx (ix2 p j) ((contrEquiv1 dot_S256x1024_S1024x1024_S256x1024_1_0_0_1_n_n 1024 rfl rfl).symm k) = ix2 k j := funext fun a => Fin.ext (by
    match a with
    | ⟨0, _⟩ => exact (dot_S256x1024_S1024x1024_S256x1024_1_0_0_1_n_n.rhsIdx_val_of_single rfl _ _).trans hk
    | ⟨1, _⟩ =>
      show (dot_S256x1024_S1024x1024_S256x1024_1_0_0_1_n_n.rhsIdx (ix2 p j) _ 1).val = j.val
      unfold DotDims.rhsIdx
      rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
      rfl)
  rw [el, er]

/-! ## The body's value in three named stages -/

/-- X's block times the four joined matrices: all the gates' and the candidate's input-side terms at once. -/
def xprod (x0 : FVec Ideal S256x1024 .bf16) (x2 : FVec Ideal S1024x4096 .bf16) : FVec Ideal S256x4096 .f32 :=
  matmul (F := Ideal) dot_S256x1024_S1024x4096_S256x4096_1_0_0_1_n_n none (shapeCast S256x1024 x0 shapeCasts_S256x1024_S256x1024)
    (shapeCast S1024x4096 x2 shapeCasts_S1024x4096_S1024x4096) (constant (F := Ideal) S256x4096 .f32 0x00000000#32)

/-- The three gates of the 256 rows, side by side. -/
def gatesBlk (x0 : FVec Ideal S256x1024 .bf16) (x1 : FVec Ideal S256x1024 .f32) (x2 : FVec Ideal S1024x4096 .bf16) (x3 : FVec Ideal S1024x3072 .bf16) (x5 : FVec Ideal S1x3072 .f32) : FVec Ideal S256x3072 .f32 :=
  tanh (addf (addf (extractStridedSlice S256x3072 ![0, 0] (xprod x0 x2) slices_S256x4096_o0_0_S256x3072)
      (matmul (F := Ideal) dot_S256x1024_S1024x3072_S256x3072_1_0_0_1_n_n none (truncf .bf16 x1 bitsLt_bf16_f32)
        (shapeCast S1024x3072 x3 shapeCasts_S1024x3072_S1024x3072) (constant (F := Ideal) S256x3072 .f32 0x00000000#32)))
    (broadcastTo S256x3072 (shapeCast S1x3072 x5 shapeCasts_S1x3072_S1x3072) broadcasts_S1x3072_S256x3072))

/-- The candidate state of the 256 rows. -/
def candBlk (x0 : FVec Ideal S256x1024 .bf16) (x1 : FVec Ideal S256x1024 .f32) (x2 : FVec Ideal S1024x4096 .bf16) (x3 : FVec Ideal S1024x3072 .bf16) (x4 : FVec Ideal S1024x1024 .bf16) (x5 : FVec Ideal S1x3072 .f32) (x6 : FVec Ideal S1x1024 .f32) : FVec Ideal S256x1024 .f32 :=
  tanh (addf (addf (extractStridedSlice S256x1024 ![0, 3072] (xprod x0 x2) slices_S256x4096_o0_3072_S256x1024)
      (matmul (F := Ideal) dot_S256x1024_S1024x1024_S256x1024_1_0_0_1_n_n none
        (truncf .bf16 (mulf x1 (extractStridedSlice S256x1024 ![0, 2048] (gatesBlk x0 x1 x2 x3 x5) slices_S256x3072_o0_2048_S256x1024)) bitsLt_bf16_f32)
        (shapeCast S1024x1024 x4 shapeCasts_S1024x1024_S1024x1024) (constant (F := Ideal) S256x1024 .f32 0x00000000#32)))
    (broadcastTo S256x1024 (shapeCast S1x1024 x6 shapeCasts_S1x1024_S1x1024) broadcasts_S1x1024_S256x1024))

/-- The stored value is (1 - mix gate) * candidate + update gate * state, over those stages. -/
theorem stored_eq (x0 : FVec Ideal S256x1024 .bf16) (x1 : FVec Ideal S256x1024 .f32) (x2 : FVec Ideal S1024x4096 .bf16) (x3 : FVec Ideal S1024x3072 .bf16) (x4 : FVec Ideal S1024x1024 .bf16) (x5 : FVec Ideal S1x3072 .f32) (x6 : FVec Ideal S1x1024 .f32) :
    k0_pay1 (F := Ideal) x0 x1 x2 x3 x4 x5 x6
      = addf (mulf (subf (broadcast S256x1024 (Scalar.ofBits (F := Ideal) .f32 0x3F800000#32))
            (extractStridedSlice S256x1024 ![0, 1024] (gatesBlk x0 x1 x2 x3 x5) slices_S256x3072_o0_1024_S256x1024))
          (candBlk x0 x1 x2 x3 x4 x5 x6))
        (mulf (extractStridedSlice S256x1024 ![0, 0] (gatesBlk x0 x1 x2 x3 x5) slices_S256x3072_o0_0_S256x1024) x1) := rfl

/-! ## Each stage at an entry -/

theorem xprod_at (x0 : FVec Ideal S256x1024 .bf16) (x2 : FVec Ideal S1024x4096 .bf16) (p : Fin 256) (c : Fin 4096) :
    xprod x0 x2 (ix2 p c) = ∑ k : Fin 1024, x0 (ix2 p k) * x2 (ix2 k c) := by
  unfold xprod
  rw [prod4096_at]
  simp only [shapeCast_self]

theorem gatesBlk_at (x0 : FVec Ideal S256x1024 .bf16) (x1 : FVec Ideal S256x1024 .f32) (x2 : FVec Ideal S1024x4096 .bf16) (x3 : FVec Ideal S1024x3072 .bf16) (x5 : FVec Ideal S1x3072 .f32) (p : Fin 256) (j : Fin 3072) :
    gatesBlk x0 x1 x2 x3 x5 (ix2 p j) = gate (fun k => x0 (ix2 p k)) (fun k => x1 (ix2 p k)) (fun k j => x2 (ix2 k (c4 j))) (fun k j => x3 (ix2 k j)) (fun j => x5 (ix2 (0 : Fin 1) j)) j := by
  unfold gatesBlk gate
  show Ideal.tanh ((extractStridedSlice S256x3072 ![0, 0] (xprod x0 x2) slices_S256x4096_o0_0_S256x3072 (ix2 p j)
      + matmul (F := Ideal) dot_S256x1024_S1024x3072_S256x3072_1_0_0_1_n_n none (truncf .bf16 x1 bitsLt_bf16_f32)
        (shapeCast S1024x3072 x3 shapeCasts_S1024x3072_S1024x3072) (constant (F := Ideal) S256x3072 .f32 0x00000000#32) (ix2 p j))
      + broadcastTo S256x3072 (shapeCast S1x3072 x5 shapeCasts_S1x3072_S1x3072) broadcasts_S1x3072_S256x3072 (ix2 p j)) = _
  rw [slice2_axis1_apply 0 (xprod x0 x2) slices_S256x4096_o0_0_S256x3072 p j (c4 j) (by show j.val = 0 + j.val; omega),
    xprod_at, prod3072_at, broadcastTo_1b_ab_apply]
  simp only [shapeCast_self]
  rfl

theorem candBlk_at (x0 : FVec Ideal S256x1024 .bf16) (x1 : FVec Ideal S256x1024 .f32) (x2 : FVec Ideal S1024x4096 .bf16) (x3 : FVec Ideal S1024x3072 .bf16) (x4 : FVec Ideal S1024x1024 .bf16) (x5 : FVec Ideal S1x3072 .f32) (x6 : FVec Ideal S1x1024 .f32) (p : Fin 256) (q : Fin 1024) :
    candBlk x0 x1 x2 x3 x4 x5 x6 (ix2 p q) = cand (fun k => x0 (ix2 p k)) (fun k => x1 (ix2 p k)) (fun k j => x2 (ix2 k (c4 j))) (fun k j => x3 (ix2 k j)) (fun j => x5 (ix2 (0 : Fin 1) j)) (fun k q => x2 (ix2 k (hc q))) (fun k q => x4 (ix2 k q)) (fun q => x6 (ix2 (0 : Fin 1) q)) q := by
  unfold candBlk cand
  show Ideal.tanh ((extractStridedSlice S256x1024 ![0, 3072] (xprod x0 x2) slices_S256x4096_o0_3072_S256x1024 (ix2 p q)
      + matmul (F := Ideal) dot_S256x1024_S1024x1024_S256x1024_1_0_0_1_n_n none
        (truncf .bf16 (mulf x1 (extractStridedSlice S256x1024 ![0, 2048] (gatesBlk x0 x1 x2 x3 x5) slices_S256x3072_o0_2048_S256x1024)) bitsLt_bf16_f32)
        (shapeCast S1024x1024 x4 shapeCasts_S1024x1024_S1024x1024) (constant (F := Ideal) S256x1024 .f32 0x00000000#32) (ix2 p q))
      + broadcastTo S256x1024 (shapeCast S1x1024 x6 shapeCasts_S1x1024_S1x1024) broadcasts_S1x1024_S256x1024 (ix2 p q)) = _
  rw [slice2_axis1_apply 3072 (xprod x0 x2) slices_S256x4096_o0_3072_S256x1024 p q (hc q) rfl,
    xprod_at, prod1024_at, broadcastTo_1b_ab_apply]
  simp only [shapeCast_self]
  have hrow : ∀ k : Fin 1024,
      (truncf .bf16 (mulf x1 (extractStridedSlice S256x1024 ![0, 2048] (gatesBlk x0 x1 x2 x3 x5) slices_S256x3072_o0_2048_S256x1024)) bitsLt_bf16_f32 : FVec Ideal S256x1024 .bf16) (ix2 p k)
        = x1 (ix2 p k) * gate (fun k => x0 (ix2 p k)) (fun k => x1 (ix2 p k)) (fun k j => x2 (ix2 k (c4 j))) (fun k j => x3 (ix2 k j)) (fun j => x5 (ix2 (0 : Fin 1) j)) (rc k) := fun k => by
    show x1 (ix2 p k) * extractStridedSlice S256x1024 ![0, 2048] (gatesBlk x0 x1 x2 x3 x5) slices_S256x3072_o0_2048_S256x1024 (ix2 p k) = _
    rw [slice2_axis1_apply 2048 (gatesBlk x0 x1 x2 x3 x5) slices_S256x3072_o0_2048_S256x1024 p k (rc k) rfl, gatesBlk_at]
  simp only [hrow]

/-- The stored block at row p, column q is the cell's new state for row p of the X and S blocks. -/
theorem stored_at (x0 : FVec Ideal S256x1024 .bf16) (x1 : FVec Ideal S256x1024 .f32) (x2 : FVec Ideal S1024x4096 .bf16) (x3 : FVec Ideal S1024x3072 .bf16) (x4 : FVec Ideal S1024x1024 .bf16) (x5 : FVec Ideal S1x3072 .f32) (x6 : FVec Ideal S1x1024 .f32) (p : Fin 256) (q : Fin 1024) :
    k0_pay1 (F := Ideal) x0 x1 x2 x3 x4 x5 x6 (ix2 p q) = next (fun k => x0 (ix2 p k)) (fun k => x1 (ix2 p k)) (fun k j => x2 (ix2 k (c4 j))) (fun k j => x3 (ix2 k j)) (fun j => x5 (ix2 (0 : Fin 1) j)) (fun k q => x2 (ix2 k (hc q))) (fun k q => x4 (ix2 k q)) (fun q => x6 (ix2 (0 : Fin 1) q)) q := by
  rw [stored_eq]
  unfold next
  show (Ideal.ofBits .f32 0x3F800000#32
        - extractStridedSlice S256x1024 ![0, 1024] (gatesBlk x0 x1 x2 x3 x5) slices_S256x3072_o0_1024_S256x1024 (ix2 p q))
      * candBlk x0 x1 x2 x3 x4 x5 x6 (ix2 p q)
      + extractStridedSlice S256x1024 ![0, 0] (gatesBlk x0 x1 x2 x3 x5) slices_S256x3072_o0_0_S256x1024 (ix2 p q) * x1 (ix2 p q) = _
  rw [slice2_axis1_apply 1024 (gatesBlk x0 x1 x2 x3 x5) slices_S256x3072_o0_1024_S256x1024 p q (gc q) rfl,
    slice2_axis1_apply 0 (gatesBlk x0 x1 x2 x3 x5) slices_S256x3072_o0_0_S256x1024 p q (zc q) (by show q.val = 0 + q.val; omega),
    candBlk_at, gatesBlk_at, gatesBlk_at]

end Cert.KernelIdeal.CellValue

end
-- ==== Proof.KernelValue.lean ====
/-
  The kernel's result array after the run is the cell's new state of the fourteen arguments.

  When the region is entered the windows' arrays hold: X and Wh in the narrow float format (the same numbers at
  the extended reals), the state S itself, the join [Uz | Ug | Ur | Uh] and the join [Wz | Wg | Wr] (narrow
  format again), and the two bias rows reshaped to one row each. Grid point t is handed rows 256 t .. 256 t + 255
  of X and S and the other five arrays whole, so by the entry lemma for the stored block, what it writes back
  at row p, column q is `GruCell.next` of row 256 t + p of X and of S; the first 3072 columns of the join of four
  are the join of three and its last 1024 columns are Uh. The 64 blocks of 256 rows tile the 16384 rows, so the
  array ends as `GruCell.newState` of the arguments everywhere.
-/
import proofs.«118173_j51419348467841_2_alg».proof.Proof.FrameKernelIdeal
import proofs.«118173_j51419348467841_2_alg».proof.Proof.KernelPayload
import Idealize.ShloMosaic.Lib.Pipeline.Value
import Idealize.ShloMosaic.Lib.StableHlo.Run
import Idealize.ShloMosaic.Lib.ValueLayout

noncomputable section

namespace Cert.KernelIdeal.CellValue

open Cert.KernelIdeal Cert.KernelIdeal.Gen Cert.KernelIdeal.Cell Cert.GruCell
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the windows' arrays hold when the region is entered -/

theorem entryX (c : Dev nD) : (atEntry m c main_v8 : S16384x1024.Idx → EReal) = (m ((c : Thread nD τ).loc main_arg0)) := by
  dsimp only [atEntry, hostOps0]; after_results; rfl

theorem entryS (c : Dev nD) : atEntry m c main_arg1 = (m ((c : Thread nD τ).loc main_arg1)) :=
  atEntry_of_not_written m c main_arg1 (by decide)

theorem entryU (c : Dev nD) : (atEntry m c main_v1 : S1024x4096.Idx → EReal) = join4 (m ((c : Thread nD τ).loc main_arg2)) (m ((c : Thread nD τ).loc main_arg3)) (m ((c : Thread nD τ).loc main_arg4)) (m ((c : Thread nD τ).loc main_arg5)) := by
  dsimp only [atEntry, hostOps0]; after_results; rfl

theorem entryW (c : Dev nD) : (atEntry m c main_v3 : S1024x3072.Idx → EReal) = join3 (m ((c : Thread nD τ).loc main_arg6)) (m ((c : Thread nD τ).loc main_arg7)) (m ((c : Thread nD τ).loc main_arg8)) := by
  dsimp only [atEntry, hostOps0]; after_results; rfl

theorem entryWh (c : Dev nD) : (atEntry m c main_v4 : S1024x1024.Idx → EReal) = (m ((c : Thread nD τ).loc main_arg9)) := by
  dsimp only [atEntry, hostOps0]; after_results; rfl

theorem entryB (c : Dev nD) : (atEntry m c main_v6 : S1x3072.Idx → EReal)
    = shapeCast S1x3072 (joinB (m ((c : Thread nD τ).loc main_arg10)) (m ((c : Thread nD τ).loc main_arg11)) (m ((c : Thread nD τ).loc main_arg12))) shapeCasts_S3072_S1x3072 := by
  dsimp only [atEntry, hostOps0]; after_results; rfl

theorem entryBh (c : Dev nD) : (atEntry m c main_v7 : S1x1024.Idx → EReal)
    = shapeCast S1x1024 (m ((c : Thread nD τ).loc main_arg13)) shapeCasts_S1024_S1x1024 := by
  dsimp only [atEntry, hostOps0]; after_results; rfl

/-! ## The printed index maps over the grid -/

/-- X, S and the result move one block of rows per point; the other five windows stay at block 0. -/
theorem idx_moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0 :=
  (by decide +kernel : ∀ t : Fin grid0.N, _)

theorem idx_resident : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The blocks at an entry -/

/-- Row p of X's block at point t is row 256 t + p of X. -/
theorem blkX_at (c : Dev nD) (t : Fin cfg0.N) (p : Fin 256) (k : Fin 1024) (R : Fin 16384) (hR : R.val = 256 * t.val + p.val) :
    blockAt m c 0 t (ix2 p k) = (m ((c : Thread nD τ).loc main_arg0)) (ix2 R k) := by
  refine Eq.trans ?_ (congrFun (entryX m c) (ix2 R k))
  show atEntry m c main_v8 (((cfg0.win 0).blk t).view.emb (ix2 p k)) = atEntry m c main_v8 (ix2 R k)
  refine congrArg (atEntry m c main_v8) (funext fun a => Fin.ext ?_)
  obtain ⟨e0, e1, -⟩ := idx_moving t
  match a with
  | ⟨0, _⟩ => show win0_0.index t (0 : Fin 2) * 256 + 1 * p.val = R.val; rw [e0, hR]; omega
  | ⟨1, _⟩ => show win0_0.index t (1 : Fin 2) * 1024 + 1 * k.val = k.val; rw [e1]; omega

/-- Row p of S's block at point t is row 256 t + p of S. -/
theorem blkS_at (c : Dev nD) (t : Fin cfg0.N) (p : Fin 256) (k : Fin 1024) (R : Fin 16384) (hR : R.val = 256 * t.val + p.val) :
    blockAt m c 1 t (ix2 p k) = (m ((c : Thread nD τ).loc main_arg1)) (ix2 R k) := by
  refine Eq.trans ?_ (congrFun (entryS m c) (ix2 R k))
  show atEntry m c main_arg1 (((cfg0.win 1).blk t).view.emb (ix2 p k)) = atEntry m c main_arg1 (ix2 R k)
  refine congrArg (atEntry m c main_arg1) (funext fun a => Fin.ext ?_)
  obtain ⟨-, -, e0, e1, -⟩ := idx_moving t
  match a with
  | ⟨0, _⟩ => show win0_1.index t (0 : Fin 2) * 256 + 1 * p.val = R.val; rw [e0, hR]; omega
  | ⟨1, _⟩ => show win0_1.index t (1 : Fin 2) * 1024 + 1 * k.val = k.val; rw [e1]; omega

/-- The joined input-side weights are handed over whole. -/
theorem blkU_at (c : Dev nD) (t : Fin cfg0.N) (k : Fin 1024) (j : Fin 4096) :
    blockAt m c 2 t (ix2 k j) = join4 (m ((c : Thread nD τ).loc main_arg2)) (m ((c : Thread nD τ).loc main_arg3)) (m ((c : Thread nD τ).loc main_arg4)) (m ((c : Thread nD τ).loc main_arg5)) (ix2 k j) := by
  refine Eq.trans ?_ (congrFun (entryU m c) (ix2 k j))
  show atEntry m c main_v1 (((cfg0.win 2).blk t).view.emb (ix2 k j)) = atEntry m c main_v1 (ix2 k j)
  refine congrArg (atEntry m c main_v1) (funext fun a => Fin.ext ?_)
  obtain ⟨e0, e1, -⟩ := idx_resident t
  match a with
  | ⟨0, _⟩ => show win0_2.index t (0 : Fin 2) * 1024 + 1 * k.val = k.val; rw [e0]; omega
  | ⟨1, _⟩ => show win0_2.index t (1 : Fin 2) * 4096 + 1 * j.val = j.val; rw [e1]; omega

/-- The joined state-side weights likewise. -/
theorem blkW_at (c : Dev nD) (t : Fin cfg0.N) (k : Fin 1024) (j : Fin 3072) :
    blockAt m c 3 t (ix2 k j) = join3 (m ((c : Thread nD τ).loc main_arg6)) (m ((c : Thread nD τ).loc main_arg7)) (m ((c : Thread nD τ).loc main_arg8)) (ix2 k j) := by
  refine Eq.trans ?_ (congrFun (entryW m c) (ix2 k j))
  show atEntry m c main_v3 (((cfg0.win 3).blk t).view.emb (ix2 k j)) = atEntry m c main_v3 (ix2 k j)
  refine congrArg (atEntry m c main_v3) (funext fun a => Fin.ext ?_)
  obtain ⟨-, -, e0, e1, -⟩ := idx_resident t
  match a with
  | ⟨0, _⟩ => show win0_3.index t (0 : Fin 2) * 1024 + 1 * k.val = k.val; rw [e0]; omega
  | ⟨1, _⟩ => show win0_3.index t (1 : Fin 2) * 3072 + 1 * j.val = j.val; rw [e1]; omega

/-- The candidate's state-side weights. -/
theorem blkWh_at (c : Dev nD) (t : Fin cfg0.N) (k q : Fin 1024) :
    blockAt m c 4 t (ix2 k q) = (m ((c : Thread nD τ).loc main_arg9)) (ix2 k q) := by
  refine Eq.trans ?_ (congrFun (entryWh m c) (ix2 k q))
  show atEntry m c main_v4 (((cfg0.win 4).blk t).view.emb (ix2 k q)) = atEntry m c main_v4 (ix2 k q)
  refine congrArg (atEntry m c main_v4) (funext fun a => Fin.ext ?_)
  obtain ⟨-, -, -, -, e0, e1, -⟩ := idx_resident t
  match a with
  | ⟨0, _⟩ => show win0_4.index t (0 : Fin 2) * 1024 + 1 * k.val = k.val; rw [e0]; omega
  | ⟨1, _⟩ => show win0_4.index t (1 : Fin 2) * 1024 + 1 * q.val = q.val; rw [e1]; omega

/-- The gates' bias row, entry j: entry j of the three biases end to end. -/
theorem blkB_at (c : Dev nD) (t : Fin cfg0.N) (j : Fin 3072) :
    blockAt m c 5 t (ix2 (0 : Fin 1) j) = joinB (m ((c : Thread nD τ).loc main_arg10)) (m ((c : Thread nD τ).loc main_arg11)) (m ((c : Thread nD τ).loc main_arg12)) (ix1 j) := by
  refine Eq.trans ?_ ((congrFun (entryB m c) (ix2 (0 : Fin 1) j)).trans (shapeCast_a_1a_apply _ _ (0 : Fin 1) j))
  show atEntry m c main_v6 (((cfg0.win 5).blk t).view.emb (ix2 (0 : Fin 1) j)) = atEntry m c main_v6 (ix2 (0 : Fin 1) j)
  refine congrArg (atEntry m c main_v6) (funext fun a => Fin.ext ?_)
  obtain ⟨-, -, -, -, -, -, e0, e1, -⟩ := idx_resident t
  match a with
  | ⟨0, _⟩ => show win0_5.index t (0 : Fin 2) * 1 + 1 * 0 = 0; rw [e0]
  | ⟨1, _⟩ => show win0_5.index t (1 : Fin 2) * 3072 + 1 * j.val = j.val; rw [e1]; omega

/-- The candidate's bias row. -/
theorem blkBh_at (c : Dev nD) (t : Fin cfg0.N) (q : Fin 1024) :
    blockAt m c 6 t (ix2 (0 : Fin 1) q) = (m ((c : Thread nD τ).loc main_arg13)) (ix1 q) := by
  refine Eq.trans ?_ ((congrFun (entryBh m c) (ix2 (0 : Fin 1) q)).trans (shapeCast_a_1a_apply _ _ (0 : Fin 1) q))
  show atEntry m c main_v7 (((cfg0.win 6).blk t).view.emb (ix2 (0 : Fin 1) q)) = atEntry m c main_v7 (ix2 (0 : Fin 1) q)
  refine congrArg (atEntry m c main_v7) (funext fun a => Fin.ext ?_)
  obtain ⟨-, -, -, -, -, -, -, -, e0, e1⟩ := idx_resident t
  match a with
  | ⟨0, _⟩ => show win0_6.index t (0 : Fin 2) * 1 + 1 * 0 = 0; rw [e0]
  | ⟨1, _⟩ => show win0_6.index t (1 : Fin 2) * 1024 + 1 * q.val = q.val; rw [e1]; omega

/-! ## What each point writes back -/

/-- The new state of the arguments on core c. -/
def cellOf (c : Dev nD) : S16384x1024.Idx → EReal :=
  newState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem zero_offsets : (![0, 0] : Fin 2 → Nat) = fun _ => 0 := funext fun a => by fin_cases a <;> rfl

/-- Entry (p, q) of the block stored at point t is entry (256 t + p, q) of the new state. -/
theorem written_at (c : Dev nD) (t : Fin cfg0.N) (p : Fin 256) (q : Fin 1024) (R : Fin 16384) (hR : R.val = 256 * t.val + p.val) :
    k0_pay1 (F := Ideal) (blockAt m c 0 t) (blockAt m c 1 t) (blockAt m c 2 t) (blockAt m c 3 t) (blockAt m c 4 t) (blockAt m c 5 t) (blockAt m c 6 t) (ix2 p q)
      = cellOf m c (ix2 R q) := by
  rw [stored_at]
  unfold cellOf
  rw [newState_at]
  simp only [blkX_at m c t p _ R hR, blkS_at m c t p _ R hR, blkU_at m c t, blkW_at m c t, blkWh_at m c t, blkB_at m c t, blkBh_at m c t,
    join4_left, join4_right]

/-- What point t writes back is block t of the new state. -/
theorem flushed_eq (c : Dev nD) (t : Fin cfg0.N) :
    (pdata m 0 c).flushed 7 t = ((cfg0.win 7).blk t).view.read (Elt Ideal) (cellOf m c) := by
  show (cfg0.win 7).cut (grid0.coords t) ((pdata m 0 c).after 7 t) = _
  rw [after7]
  unfold newBlock
  rw [View.canon_unit_zero zero_offsets]
  simp only [View.ld_unit_zero (S := S256x1024) zero_offsets, View.ld_unit_zero (S := S1024x4096) zero_offsets,
    View.ld_unit_zero (S := S1024x3072) zero_offsets, View.ld_unit_zero (S := S1024x1024) zero_offsets,
    View.ld_unit_zero (S := S1x3072) zero_offsets, View.ld_unit_zero (S := S1x1024) zero_offsets]
  funext y
  have ht : t.val < 64 := by have h := t.isLt; have hN : cfg0.N = 64 := N_0; omega
  have hp : (y 0).val < 256 := (y 0).isLt
  have hq : (y 1).val < 1024 := (y 1).isLt
  obtain ⟨-, -, -, -, e0, e1⟩ := idx_moving t
  have hemb : ((cfg0.win 7).blk t).view.emb y = ix2 (⟨256 * t.val + (y 0).val, by omega⟩ : Fin 16384) (⟨(y 1).val, hq⟩ : Fin 1024) := by
    funext a; apply Fin.ext
    match a with
    | ⟨0, _⟩ => show win0_7.index t (0 : Fin 2) * 256 + 1 * (y 0).val = 256 * t.val + (y 0).val; rw [e0]; omega
    | ⟨1, _⟩ => show win0_7.index t (1 : Fin 2) * 1024 + 1 * (y 1).val = (y 1).val; rw [e1]; omega
  show k0_pay1 (F := Ideal) (blockAt m c 0 t) (blockAt m c 1 t) (blockAt m c 2 t) (blockAt m c 3 t) (blockAt m c 4 t) (blockAt m c 5 t) (blockAt m c 6 t) y
      = cellOf m c (((cfg0.win 7).blk t).view.emb y)
  rw [hemb]
  exact (congrArg (k0_pay1 (F := Ideal) (blockAt m c 0 t) (blockAt m c 1 t) (blockAt m c 2 t) (blockAt m c 3 t) (blockAt m c 4 t) (blockAt m c 5 t) (blockAt m c 6 t)) (eq_ix2 y)).trans
    (written_at m c t ⟨(y 0).val, hp⟩ ⟨(y 1).val, hq⟩ _ rfl)

/-! ## The 64 blocks tile the rows -/

theorem mem_out_blk (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v9).slice (win0_7.rect t)).set ↔ _
  rw [View.set_slice_whole, Rect.mem_set_unit]
  exact Iff.rfl

/-- Row r lies in the block of point r / 256. -/
theorem rows_covered (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  have hN : cfg0.N = 64 := N_0
  refine ⟨⟨(i 0).val / 256, by rw [hN]; omega⟩, flush0_7 _, ?_⟩
  rw [mem_out_blk]
  obtain ⟨-, -, -, -, e0, e1⟩ := idx_moving ⟨(i 0).val / 256, by rw [hN]; omega⟩
  intro a
  match a with
  | ⟨0, _⟩ =>
    show win0_7.index _ (0 : Fin 2) * 256 ≤ (i 0).val ∧ (i 0).val < win0_7.index _ (0 : Fin 2) * 256 + 256
    rw [e0]; show (i 0).val / 256 * 256 ≤ (i 0).val ∧ (i 0).val < (i 0).val / 256 * 256 + 256; omega
  | ⟨1, _⟩ =>
    show win0_7.index _ (1 : Fin 2) * 1024 ≤ (i 1).val ∧ (i 1).val < win0_7.index _ (1 : Fin 2) * 1024 + 1024
    rw [e1]; omega

/-- The result array after the last point. -/
theorem result_final (c : Dev nD) : (pdata m 0 c).arrAt 7 cfg0.N = cellOf m c :=
  (pdata m 0 c).arrAt_eq_of_cover 7 (cellOf m c) (fun t _ => flushed_eq m c t) rows_covered

/-! ## The run, read -/

/-- Every weakly fair execution of the kernel's @main ends with the result array at the new state of the
    arguments and the arguments unchanged. -/
theorem run : θ_run defs (onTc (τ := τ) (main (F := Ideal))) ⟨m, fun _ => 0, ρ⟩ fun r => ∀ c : Dev nD,
      r.2.mem ((c.tc : Thread nD τ).loc main_v9) = cellOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h c).1 7).trans (result_final m c), args_kept m (pdata m) (pdata_A m) r h c⟩)
    (run_main m ρ)

end Cert.KernelIdeal.CellValue

end
-- ==== Proof.RefValue.lean ====
/-
  The reference's result, read one entry at a time, is the cell's row function.

  The reference joins [Uz | Ug | Ur], [Wz | Wg | Wr] and the three gate biases, forms X·U + S·W + b over all 3072
  joined columns, takes tanh, cuts the three gates apart by columns, and forms the candidate from X·Uh and
  (S * reset)·Wh. At the extended reals each host product is the plain sum over the contracted axis, and every
  other operation reads its operands at one index; so entry (r, q) of the result is `GruCell.next` of row r of X
  and of S, with the joins left as they are.
-/
import proofs.«118173_j51419348467841_2_alg».proof.Proof.Gen.ReferenceIdeal.Read
import proofs.«118173_j51419348467841_2_alg».proof.Proof.CellSpec

noncomputable section

namespace Cert.ReferenceIdeal.CellValue

open Cert.ReferenceIdeal Cert.ReferenceIdeal.Read Cert.GruCell
open Idealize.ShloMosaic Idealize.ShloMosaic.ValueIdx

/-- The fused gates at row r and joined column j. -/
theorem gates_at (x0 x1 : (⟨S16384x1024, .f32⟩ : BufTy).Contents (Elt Ideal)) (x2 x3 x4 x6 x7 x8 : (⟨S1024x1024, .f32⟩ : BufTy).Contents (Elt Ideal)) (x10 x11 x12 : (⟨S1024, .f32⟩ : BufTy).Contents (Elt Ideal)) (r : Fin 16384) (j : Fin 3072) :
    val_main_v9 (F := Ideal) x0 x1 x2 x3 x4 x6 x7 x8 x10 x11 x12 (ix2 r j) = gate (fun k => x0 (ix2 r k)) (fun k => x1 (ix2 r k)) (fun k j => join3 x2 x3 x4 (ix2 k j)) (fun k j => join3 x6 x7 x8 (ix2 k j)) (fun j => joinB x10 x11 x12 (ix1 j)) j := by
  rw [val_main_v9_apply, val_main_v8_apply, val_main_v5_apply, val_main_v3_apply, val_main_v4_apply, val_main_v7_apply,
    val_main_v6_apply]
  have e1 : ∀ k : Fin 1024, lidx_main_v3 (ix2 r j) k = ix2 r k := fun k => funext fun a => Fin.ext (by match a with | ⟨0, _⟩ => rfl | ⟨1, _⟩ => rfl)
  have e2 : ∀ k : Fin 1024, ridx_main_v3 (ix2 r j) k = ix2 k j := fun k => funext fun a => Fin.ext (by match a with | ⟨0, _⟩ => rfl | ⟨1, _⟩ => rfl)
  have e3 : ∀ k : Fin 1024, lidx_main_v4 (ix2 r j) k = ix2 r k := fun k => funext fun a => Fin.ext (by match a with | ⟨0, _⟩ => rfl | ⟨1, _⟩ => rfl)
  have e4 : ∀ k : Fin 1024, ridx_main_v4 (ix2 r j) k = ix2 k j := fun k => funext fun a => Fin.ext (by match a with | ⟨0, _⟩ => rfl | ⟨1, _⟩ => rfl)
  have e5 : idx_main_v6 (idx_main_v7 (ix2 r j)) = ix1 j := funext fun a => Fin.ext (by match a with | ⟨0, _⟩ => rfl)
  simp only [e1, e2, e3, e4, e5]
  rfl

/-- The candidate at row r and column q. -/
theorem cand_at (x0 x1 : (⟨S16384x1024, .f32⟩ : BufTy).Contents (Elt Ideal)) (x2 x3 x4 x5 x6 x7 x8 x9 : (⟨S1024x1024, .f32⟩ : BufTy).Contents (Elt Ideal)) (x10 x11 x12 x13 : (⟨S1024, .f32⟩ : BufTy).Contents (Elt Ideal)) (r : Fin 16384) (q : Fin 1024) :
    val_main_v20 (F := Ideal) x0 x1 x2 x3 x4 x5 x6 x7 x8 x9 x10 x11 x12 x13 (ix2 r q) = cand (fun k => x0 (ix2 r k)) (fun k => x1 (ix2 r k)) (fun k j => join3 x2 x3 x4 (ix2 k j)) (fun k j => join3 x6 x7 x8 (ix2 k j)) (fun j => joinB x10 x11 x12 (ix1 j)) (fun k q => x5 (ix2 k q)) (fun k q => x9 (ix2 k q)) (fun q => x13 (ix1 q)) q := by
  rw [val_main_v20_apply, val_main_v19_apply, val_main_v16_apply, val_main_v13_apply, val_main_v15_apply, val_main_v18_apply,
    val_main_v17_apply]
  have e1 : ∀ k : Fin 1024, lidx_main_v13 (ix2 r q) k = ix2 r k := fun k => funext fun a => Fin.ext (by match a with | ⟨0, _⟩ => rfl | ⟨1, _⟩ => rfl)
  have e2 : ∀ k : Fin 1024, ridx_main_v13 (ix2 r q) k = ix2 k q := fun k => funext fun a => Fin.ext (by match a with | ⟨0, _⟩ => rfl | ⟨1, _⟩ => rfl)
  have e3 : ∀ k : Fin 1024, lidx_main_v15 (ix2 r q) k = ix2 r k := fun k => funext fun a => Fin.ext (by match a with | ⟨0, _⟩ => rfl | ⟨1, _⟩ => rfl)
  have e4 : ∀ k : Fin 1024, ridx_main_v15 (ix2 r q) k = ix2 k q := fun k => funext fun a => Fin.ext (by match a with | ⟨0, _⟩ => rfl | ⟨1, _⟩ => rfl)
  have e5 : idx_main_v17 (idx_main_v18 (ix2 r q)) = ix1 q := funext fun a => Fin.ext (by match a with | ⟨0, _⟩ => rfl)
  have e6 : ∀ k : Fin 1024, idx_main_v12 (ix2 r k) = ix2 r (rc k) := fun k => funext fun a => Fin.ext (by match a with | ⟨0, _⟩ => rfl | ⟨1, _⟩ => rfl)
  simp only [e1, e2, e3, e4, e5, val_main_v14_apply, val_main_v12_apply, e6, gates_at]
  rfl

/-- The result at row r and column q. -/
theorem result_at (x0 x1 : (⟨S16384x1024, .f32⟩ : BufTy).Contents (Elt Ideal)) (x2 x3 x4 x5 x6 x7 x8 x9 : (⟨S1024x1024, .f32⟩ : BufTy).Contents (Elt Ideal)) (x10 x11 x12 x13 : (⟨S1024, .f32⟩ : BufTy).Contents (Elt Ideal)) (r : Fin 16384) (q : Fin 1024) :
    val_main_v25 (F := Ideal) x0 x1 x2 x3 x4 x5 x6 x7 x8 x9 x10 x11 x12 x13 (ix2 r q) = next (fun k => x0 (ix2 r k)) (fun k => x1 (ix2 r k)) (fun k j => join3 x2 x3 x4 (ix2 k j)) (fun k j => join3 x6 x7 x8 (ix2 k j)) (fun j => joinB x10 x11 x12 (ix1 j)) (fun k q => x5 (ix2 k q)) (fun k q => x9 (ix2 k q)) (fun q => x13 (ix1 q)) q := by
  rw [val_main_v25_apply, val_main_v23_apply, val_main_v22_apply, val_main_v21_apply, val_main_cst_apply, val_main_v11_apply,
    val_main_v24_apply, val_main_v10_apply]
  have e11 : idx_main_v11 (ix2 r q) = ix2 r (gc q) := funext fun a => Fin.ext (by match a with | ⟨0, _⟩ => rfl | ⟨1, _⟩ => rfl)
  have e10 : idx_main_v10 (ix2 r q) = ix2 r (zc q) := funext fun a => Fin.ext (by match a with | ⟨0, _⟩ => rfl | ⟨1, _⟩ => rfl)
  rw [e11, e10, gates_at, gates_at, cand_at]
  rfl

/-- The reference's result is the cell's new state of the fourteen arguments. -/
theorem result_eq (x0 x1 : (⟨S16384x1024, .f32⟩ : BufTy).Contents (Elt Ideal)) (x2 x3 x4 x5 x6 x7 x8 x9 : (⟨S1024x1024, .f32⟩ : BufTy).Contents (Elt Ideal)) (x10 x11 x12 x13 : (⟨S1024, .f32⟩ : BufTy).Contents (Elt Ideal)) :
    val_main_v25 (F := Ideal) x0 x1 x2 x3 x4 x5 x6 x7 x8 x9 x10 x11 x12 x13 = newState x0 x1 x2 x3 x4 x5 x6 x7 x8 x9 x10 x11 x12 x13 := by
  funext i
  obtain ⟨r, q, rfl⟩ : ∃ (r : Fin 16384) (q : Fin 1024), i = ix2 r q := ⟨i 0, i 1, eq_ix2 i⟩
  rw [result_at, newState_at]

end Cert.ReferenceIdeal.CellValue

end
-- ==== Proof.lean ====
/-
  A gated recurrent cell as one fused kernel against its plain reference: the frames of the three programs, and
  that the idealized kernel and the idealized reference end with equal results.

  Both programs compute, for every row of the input X and of the state S,
      zgr = tanh (x · [Uz | Ug | Ur] + s · [Wz | Wg | Wr] + [bz | bg | br]),   Z, G, R its three column blocks,
      H   = tanh (x · Uh + (s * R) · Wh + bh),        new state = (1 - G) * H + Z * s.
  The kernel forms x · [Uz | Ug | Ur | Uh] in one product and cuts the candidate's term out of its last 1024
  columns; the reference forms the two products separately. Column by column these are the same sums, because a
  join of matrices read at a column is the matrix that owns the column; the changes of float format on the way
  into the matrix unit are the identity at the extended reals. Nothing else differs, down to the order of the
  additions, so the two results are one function of the arguments (`GruCell.newState`) and no precondition on the
  arguments is used. The idealization rewrote nothing, so there is nothing to preserve.

  The kernel's frame is proved against the pipeline library's frame launch (the body's triple by symbolic
  execution, the host operations before the region by the library's prefix lemma); the reference's frame and
  value are its generated run read one operation at a time.
-/
import proofs.«118173_j51419348467841_2_alg».proof.Defs
import proofs.«118173_j51419348467841_2_alg».proof.Proof.Gen.Kernel
import proofs.«118173_j51419348467841_2_alg».proof.Proof.Gen.KernelIdeal
import proofs.«118173_j51419348467841_2_alg».proof.Proof.Gen.ReferenceIdeal
import proofs.«118173_j51419348467841_2_alg».proof.Proof.Gen.Pre_finite_inputs
import proofs.«118173_j51419348467841_2_alg».proof.Proof.Gen.ReferenceIdeal.Run
import proofs.«118173_j51419348467841_2_alg».proof.Proof.Gen.ReferenceIdeal.Read
import proofs.«118173_j51419348467841_2_alg».proof.Proof.FrameKernel
import proofs.«118173_j51419348467841_2_alg».proof.Proof.FrameKernelIdeal
import proofs.«118173_j51419348467841_2_alg».proof.Proof.KernelValue
import proofs.«118173_j51419348467841_2_alg».proof.Proof.RefValue

noncomputable section

namespace Cert.Proof

open Idealize.ShloMosaic Idealize.ShloMosaic.TcCoe Idealize.SL.Sem

/-- The kernel as printed runs to its end and keeps its arguments. -/
theorem frame_kernel : Cert.frame_Kernel := fun m ρ _ => Cert.Kernel.Cell.frame m ρ

/-- So does its reading at the extended reals. -/
theorem frame_kernel_ideal : Cert.frame_KernelIdeal := fun m ρ _ => Cert.KernelIdeal.Cell.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories agreeing on the arguments, both runs end with the result array at the cell's new state of
    the arguments. -/
theorem algebraic : Cert.algebraic_KernelIdeal_ReferenceIdeal := by
  intro m ρ m' ρ' _ hagree
  refine ⟨fun c => Cert.KernelIdeal.CellValue.cellOf m c, Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v25_eq, Cert.ReferenceIdeal.CellValue.result_eq, h0, h1, h2, h3, h4, h5, h6, h7, h8, h9, h10, h11, h12, h13]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
